-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1022 : Shape := ⟨2, ![256, 1022]⟩
abbrev S1024x512 : Shape := ⟨2, ![1024, 512]⟩
abbrev S_ : Shape := ⟨0, ![]⟩

class Facts : Prop where
  bcast_S_S256x1022 : S_.BroadcastsInDim S256x1022 (![] : Fin 0 → Fin S256x1022.rank)
  reducesTo_S256x1022_S_d0_1 : S256x1022.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S256x1022 .f32) (main_arg1 : FVec F S1024x512 .f32) : IVec S_ 1 :=
  let main_v0 : FVec F S256x1022 .f32 := Host.absf main_arg0
  let main_cst : FVec F S_ .f32 := constant S_ .f32 0x7F800000#32
  let main_v1 : FVec F S256x1022 .f32 := broadcastInDim S256x1022 ![] bcast_S_S256x1022 main_cst
  let main_v2 : IVec S256x1022 1 := cmpf .olt main_v0 main_v1
  let main_c : IVec S_ 1 := constantI S_ 1 1#1
  let main_v3 : IVec S_ 1 := (fun x v => Host.reduce IntOp.andi x v reducesTo_S256x1022_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  main_v8
-- ==== Kernel.lean ====
abbrev S256x1022 : Shape := ⟨2, ![256, 1022]⟩
abbrev S1024x512 : Shape := ⟨2, ![1024, 512]⟩
abbrev S_ : Shape := ⟨0, ![]⟩
abbrev S256x1 : Shape := ⟨2, ![256, 1]⟩
abbrev S256x1024 : Shape := ⟨2, ![256, 1024]⟩
abbrev S1 : Shape := ⟨1, ![1]⟩
abbrev S256 : Shape := ⟨1, ![256]⟩
abbrev S1024 : Shape := ⟨1, ![1024]⟩
abbrev S1024x1 : Shape := ⟨2, ![1024, 1]⟩
abbrev S256x512 : Shape := ⟨2, ![256, 512]⟩
abbrev S2x8x128 : Shape := ⟨3, ![2, 8, 128]⟩
abbrev S1024x256 : Shape := ⟨2, ![1024, 256]⟩
abbrev S256x256 : Shape := ⟨2, ![256, 256]⟩
abbrev S1x8x128 : Shape := ⟨3, ![1, 8, 128]⟩
abbrev S1x256 : Shape := ⟨2, ![1, 256]⟩
abbrev S1x1024x1 : Shape := ⟨3, ![1, 1024, 1]⟩
abbrev S1x1x1 : Shape := ⟨3, ![1, 1, 1]⟩
abbrev S1x256x256 : Shape := ⟨3, ![1, 256, 256]⟩
abbrev S2x1x1 : Shape := ⟨3, ![2, 1, 1]⟩
abbrev S2 : Shape := ⟨1, ![2]⟩

abbrev nBuf : Space → Nat
  | .hbm => 42
  | .vmem => 10
  | .smem => 0
  | _ => 0

abbrev bufTy : (tb : Table) → Fin (tcTables nBuf tb) → BufTy
  | .hbm, ⟨0, _⟩ => ⟨S256x1022, .f32⟩
  | .hbm, ⟨1, _⟩ => ⟨S1024x512, .f32⟩
  | .hbm, ⟨2, _⟩ => ⟨S_, .f32⟩
  | .hbm, ⟨3, _⟩ => ⟨S256x1, .f32⟩
  | .hbm, ⟨4, _⟩ => ⟨S_, .f32⟩
  | .hbm, ⟨5, _⟩ => ⟨S256x1, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .i32⟩
  | .hbm, ⟨22, _⟩ => ⟨S1, .i32⟩
  | .hbm, ⟨23, _⟩ => ⟨S_, .f32⟩
  | .hbm, ⟨24, _⟩ => ⟨S256, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S1024, .f32⟩
  | .hbm, ⟨29, _⟩ => ⟨S1024x1, .f32⟩
  | .hbm, ⟨30, _⟩ => ⟨S256x1024, .f32⟩
  | .hbm, ⟨31, _⟩ => ⟨S_, .f32⟩
  | .hbm, ⟨32, _⟩ => ⟨S1024, .f32⟩
  | .hbm, ⟨33, _⟩ => ⟨S1024x1, .f32⟩
  | .hbm, ⟨34, _⟩ => ⟨S256x512, .f32⟩
  | .hbm, ⟨35, _⟩ => ⟨S2x8x128, .f32⟩
  | .hbm, ⟨36, _⟩ => ⟨S2x1x1, .f32⟩
  | .hbm, ⟨37, _⟩ => ⟨S2, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S256x1024, .f32⟩
  | .local _ .vmem, ⟨3, _⟩ => ⟨S256x1024, .f32⟩
  | .local _ .vmem, ⟨4, _⟩ => ⟨S1024x1, .f32⟩
  | .local _ .vmem, ⟨5, _⟩ => ⟨S1024x1, .f32⟩
  | .local _ .vmem, ⟨6, _⟩ => ⟨S256x256, .f32⟩
  | .local _ .vmem, ⟨7, _⟩ => ⟨S256x256, .f32⟩
  | .local _ .vmem, ⟨8, _⟩ => ⟨S1x8x128, .f32⟩
  | .local _ .vmem, ⟨9, _⟩ => ⟨S1x8x128, .f32⟩
  | _, _ => ⟨S256x1022, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_6 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S256x1 : S_.BroadcastsInDim S256x1 (![] : Fin 0 → Fin S256x1.rank)
  concatenates_S256x1022_S256x1_S256x1_S256x1024_d1 : Shape.Concatenates [S256x1022, S256x1, S256x1] S256x1024 1
  bcast_S_S256x1024 : S_.BroadcastsInDim S256x1024 (![] : Fin 0 → Fin S256x1024.rank)
  bcast_S_S1 : S_.BroadcastsInDim S1 (![] : Fin 0 → Fin S1.rank)
  bcast_S_S256 : S_.BroadcastsInDim S256 (![] : Fin 0 → Fin S256.rank)
  reducesTo_S256x1024_S1024_d0 : S256x1024.ReducesTo [0] S1024
  h_S_ : 0 < S_.numel
  shapeCasts_S1024_S1024x1 : S1024.ShapeCasts S1024x1
  inb_S1024x256_S1024x256_0_0 : ∀ a, (![0, 0] : Fin 2 → Nat) a + S1024x256.size a ≤ S1024x256.size a
  h_S1024x256 : 0 < S1024x256.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x256_S256 : S1024x256.Reduces [0] S256
  shapeCasts_S256_S1x256 : S256.ShapeCasts S1x256
  broadcasts_S1x256_S1024x256 : S1x256.Broadcasts S1024x256
  natLt_1_32 : 1 < 32
  inb_S256x256_S256x256_0_0 : ∀ a, (![0, 0] : Fin 2 → Nat) a + S256x256.size a ≤ S256x256.size a
  h_S256x256 : 0 < S256x256.numel
  reduces_S1024x256_S1024 : S1024x256.Reduces [1] S1024
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  broadcasts_S1x256_S256x256 : S1x256.Broadcasts S256x256
  shapeCasts_S256x256_S1x256x256 : S256x256.ShapeCasts S1x256x256
  reduces_S1x256x256_S1 : S1x256x256.Reduces [1, 2] S1
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  scatter_S256x1024_S1_S256_0_1_1_0_wf : ScatterDims.WF S256x1024 S1 S256 [0] [1] [1] 0
  dot_S256x1024_S1024x256_S256x256_1_0_0_1_n_n_wf : DotDims.WF S256x1024 S1024x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S1024x512.size a
  hwx0_0 : ∀ i : grid0.Coords, EltTy.bits .f32 = 32 ∨ (Rect.block (s := S1024x512) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .f32 = 32 ∨ (Rect.block (s := S256x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S1024x1.size a
  hwx0_3 : ∀ i : grid0.Coords, EltTy.bits .f32 = 32 ∨ (Rect.block (s := S1024x1) S1024x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S1024x1.size a
  hwx0_4 : ∀ i : grid0.Coords, EltTy.bits .f32 = 32 ∨ (Rect.block (s := S1024x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x512.size a
  hwx0_5 : ∀ i : grid0.Coords, EltTy.bits .f32 = 32 ∨ (Rect.block (s := S256x512) S256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S2x8x128.size a
  hwx0_6 : ∀ i : grid0.Coords, EltTy.bits .f32 = 32 ∨ (Rect.block (s := S2x8x128) S1x8x128.size (cc0_transform_6 i) (hinb0_6 i)).WholeWords (EltTy.packing .f32)

variable [Facts₀]

def scatter_S256x1024_S1_S256_0_1_1_0 : ScatterDims S256x1024 S1 S256 where
  updateWindowDims := [0]
  insertedWindowDims := [1]
  scatterDimsToOperandDims := [1]
  indexVectorDim := 0
  wf := scatter_S256x1024_S1_S256_0_1_1_0_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

abbrev win0_0 : Pipeline.Window sig grid0 :=
  Pipeline.Window.ofSpec (Memref.whole main_arg1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1024x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1024x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22_0) S256x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22_1) S1x8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S256x1022 : Shape := ⟨2, ![256, 1022]⟩
abbrev S1024x512 : Shape := ⟨2, ![1024, 512]⟩
abbrev S_ : Shape := ⟨0, ![]⟩
abbrev S512 : Shape := ⟨1, ![512]⟩
abbrev S1x512 : Shape := ⟨2, ![1, 512]⟩
abbrev S256x1 : Shape := ⟨2, ![256, 1]⟩
abbrev S256x1024 : Shape := ⟨2, ![256, 1024]⟩
abbrev S1 : Shape := ⟨1, ![1]⟩
abbrev S256 : Shape := ⟨1, ![256]⟩
abbrev S256x512 : Shape := ⟨2, ![256, 512]⟩
abbrev S256x1024x1 : Shape := ⟨3, ![256, 1024, 1]⟩
abbrev S1x1024x512 : Shape := ⟨3, ![1, 1024, 512]⟩
abbrev S256x1024x512 : Shape := ⟨3, ![256, 1024, 512]⟩
abbrev S256x1x512 : Shape := ⟨3, ![256, 1, 512]⟩

abbrev nBuf : Space → Nat
  | .hbm => 106
  | .vmem => 0
  | .smem => 0
  | _ => 0

abbrev bufTy : (tb : Table) → Fin (tcTables nBuf tb) → BufTy
  | .hbm, ⟨0, _⟩ => ⟨S256x1022, .f32⟩
  | .hbm, ⟨1, _⟩ => ⟨S1024x512, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .i1⟩
  | .hbm, ⟨14, _⟩ => ⟨S_, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S512, .f32⟩
  | .hbm, ⟨23, _⟩ => ⟨S1x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .i1⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256x1024, .f32⟩
  | .hbm, ⟨47, _⟩ => ⟨S256x1024, .f32⟩
  | .hbm, ⟨48, _⟩ => ⟨S_, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S_, .i32⟩
  | .hbm, ⟨53, _⟩ => ⟨S1, .i32⟩
  | .hbm, ⟨54, _⟩ => ⟨S_, .f32⟩
  | .hbm, ⟨55, _⟩ => ⟨S256, .f32⟩
  | .hbm, ⟨56, _⟩ => ⟨S256x1024, .f32⟩
  | .hbm, ⟨57, _⟩ => ⟨S1024x512, .f32⟩
  | .hbm, ⟨58, _⟩ => ⟨S256x512, .f32⟩
  | .hbm, ⟨59, _⟩ => ⟨S1024x512, .f32⟩
  | .hbm, ⟨60, _⟩ => ⟨S256x512, .f32⟩
  | .hbm, ⟨61, _⟩ => ⟨S256x512, .f32⟩
  | .hbm, ⟨62, _⟩ => ⟨S1024x512, .f32⟩
  | .hbm, ⟨63, _⟩ => ⟨S_, .f32⟩
  | .hbm, ⟨64, _⟩ => ⟨S512, .f32⟩
  | .hbm, ⟨65, _⟩ => ⟨S1x512, .f32⟩
  | .hbm, ⟨66, _⟩ => ⟨S_, .f32⟩
  | .hbm, ⟨67, _⟩ => ⟨S1x512, .f32⟩
  | .hbm, ⟨68, _⟩ => ⟨S1x512, .f32⟩
  | .hbm, ⟨69, _⟩ => ⟨S1024x512, .f32⟩
  | .hbm, ⟨70, _⟩ => ⟨S1024x512, .f32⟩
  | .hbm, ⟨71, _⟩ => ⟨S256x1024x1, .f32⟩
  | .hbm, ⟨72, _⟩ => ⟨S1x1024x512, .f32⟩
  | .hbm, ⟨73, _⟩ => ⟨S256x1024x512, .f32⟩
  | .hbm, ⟨74, _⟩ => ⟨S256x1024x512, .f32⟩
  | .hbm, ⟨75, _⟩ => ⟨S256x1024x512, .f32⟩
  | .hbm, ⟨76, _⟩ => ⟨S256x1024x1, .f32⟩
  | .hbm, ⟨77, _⟩ => ⟨S1x1024x512, .f32⟩
  | .hbm, ⟨78, _⟩ => ⟨S256x1024x512, .f32⟩
  | .hbm, ⟨79, _⟩ => ⟨S256x1024x512, .f32⟩
  | .hbm, ⟨80, _⟩ => ⟨S256x1024x512, .f32⟩
  | .hbm, ⟨81, _⟩ => ⟨S256x1024x512, .f32⟩
  | .hbm, ⟨82, _⟩ => ⟨S256x1x512, .f32⟩
  | .hbm, ⟨83, _⟩ => ⟨S256x1024x512, .f32⟩
  | .hbm, ⟨84, _⟩ => ⟨S256x1024x512, .f32⟩
  | .hbm, ⟨85, _⟩ => ⟨S1x1024x512, .f32⟩
  | .hbm, ⟨86, _⟩ => ⟨S256x1024x512, .f32⟩
  | .hbm, ⟨87, _⟩ => ⟨S256x1024x512, .f32⟩
  | .hbm, ⟨88, _⟩ => ⟨S256x1024x512, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S256x512, .f32⟩
  | .hbm, ⟨95, _⟩ => ⟨S256x512, .f32⟩
  | .hbm, ⟨96, _⟩ => ⟨S_, .f32⟩
  | .hbm, ⟨97, _⟩ => ⟨S256x512, .f32⟩
  | .hbm, ⟨98, _⟩ => ⟨S256x512, .f32⟩
  | .hbm, ⟨99, _⟩ => ⟨S256x512, .f32⟩
  | .hbm, ⟨100, _⟩ => ⟨S_, .f32⟩
  | .hbm, ⟨101, _⟩ => ⟨S256x512, .f32⟩
  | .hbm, ⟨102, _⟩ => ⟨S256x512, .f32⟩
  | .hbm, ⟨103, _⟩ => ⟨S_, .f32⟩
  | .hbm, ⟨104, _⟩ => ⟨S256x512, .f32⟩
  | .hbm, ⟨105, _⟩ => ⟨S256x512, .f32⟩
  | _, _ => ⟨S256x1022, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_v16 : Ref sig .tc := ⟨.hbm, 32, rfl⟩
abbrev main_cst_6 : Ref sig .tc := ⟨.hbm, 33, rfl⟩
abbrev main_v17 : Ref sig .tc := ⟨.hbm, 34, rfl⟩
abbrev main_cst_7 : Ref sig .tc := ⟨.hbm, 35, rfl⟩
abbrev main_v18 : Ref sig .tc := ⟨.hbm, 36, rfl⟩
abbrev main_v19 : Ref sig .tc := ⟨.hbm, 37, rfl⟩
abbrev main_cst_8 : Ref sig .tc := ⟨.hbm, 38, rfl⟩
abbrev main_v20 : Ref sig .tc := ⟨.hbm, 39, rfl⟩
abbrev main_v21 : Ref sig .tc := ⟨.hbm, 40, rfl⟩
abbrev main_cst_9 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_10 : Ref sig .tc := ⟨.hbm, 45, rfl⟩
abbrev main_v25 : Ref sig .tc := ⟨.hbm, 46, rfl⟩
abbrev main_v26 : Ref sig .tc := ⟨.hbm, 47, rfl⟩
abbrev main_cst_11 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c : Ref sig .tc := ⟨.hbm, 52, rfl⟩
abbrev main_v30 : Ref sig .tc := ⟨.hbm, 53, rfl⟩
abbrev main_cst_12 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_13 : Ref sig .tc := ⟨.hbm, 63, rfl⟩
abbrev main_v39 : Ref sig .tc := ⟨.hbm, 64, rfl⟩
abbrev main_v40 : Ref sig .tc := ⟨.hbm, 65, rfl⟩
abbrev main_cst_14 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_15 : Ref sig .tc := ⟨.hbm, 89, rfl⟩
abbrev main_v63 : Ref sig .tc := ⟨.hbm, 90, rfl⟩
abbrev main_cst_16 : Ref sig .tc := ⟨.hbm, 91, rfl⟩
abbrev main_v64 : Ref sig .tc := ⟨.hbm, 92, rfl⟩
abbrev main_cst_17 : Ref sig .tc := ⟨.hbm, 93, rfl⟩
abbrev main_v65 : Ref sig .tc := ⟨.hbm, 94, rfl⟩
abbrev main_v66 : Ref sig .tc := ⟨.hbm, 95, rfl⟩
abbrev main_cst_18 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_19 : Ref sig .tc := ⟨.hbm, 100, rfl⟩
abbrev main_v70 : Ref sig .tc := ⟨.hbm, 101, rfl⟩
abbrev main_v71 : Ref sig .tc := ⟨.hbm, 102, rfl⟩
abbrev main_cst_20 : Ref sig .tc := ⟨.hbm, 103, rfl⟩
abbrev main_v72 : Ref sig .tc := ⟨.hbm, 104, rfl⟩
abbrev main_v73 : Ref sig .tc := ⟨.hbm, 105, rfl⟩

abbrev nD : Nat := 1
abbrev τ : Topo := Topo.v7x

variable {F : FTy → Type} [FloatOps F]

class Facts₀ : Prop where
  bcast_S_S1024x512 : S_.BroadcastsInDim S1024x512 (![] : Fin 0 → Fin S1024x512.rank)
  reducesTo_S1024x512_S512_d0 : S1024x512.ReducesTo [0] S512
  h_S_ : 0 < S_.numel
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S256x1 : S_.BroadcastsInDim S256x1 (![] : Fin 0 → Fin S256x1.rank)
  concatenates_S256x1022_S256x1_S256x1_S256x1024_d1 : Shape.Concatenates [S256x1022, S256x1, S256x1] S256x1024 1
  bcast_S_S256x1024 : S_.BroadcastsInDim S256x1024 (![] : Fin 0 → Fin S256x1024.rank)
  bcast_S_S1 : S_.BroadcastsInDim S1 (![] : Fin 0 → Fin S1.rank)
  bcast_S_S256 : S_.BroadcastsInDim S256 (![] : Fin 0 → Fin S256.rank)
  bcast_S_S1x512 : S_.BroadcastsInDim S1x512 (![] : Fin 0 → Fin S1x512.rank)
  bcast_S256x1024_S256x1024x1_0_1 : S256x1024.BroadcastsInDim S256x1024x1 (![0, 1] : Fin 2 → Fin S256x1024x1.rank)
  bcast_S1024x512_S1x1024x512_1_2 : S1024x512.BroadcastsInDim S1x1024x512 (![1, 2] : Fin 2 → Fin S1x1024x512.rank)
  bcast_S256x1024x1_S256x1024x512_0_1_2 : S256x1024x1.BroadcastsInDim S256x1024x512 (![0, 1, 2] : Fin 3 → Fin S256x1024x512.rank)
  bcast_S1x1024x512_S256x1024x512_0_1_2 : S1x1024x512.BroadcastsInDim S256x1024x512 (![0, 1, 2] : Fin 3 → Fin S256x1024x512.rank)
  bcast_S256x512_S256x1x512_0_2 : S256x512.BroadcastsInDim S256x1x512 (![0, 2] : Fin 2 → Fin S256x1x512.rank)
  bcast_S256x1x512_S256x1024x512_0_1_2 : S256x1x512.BroadcastsInDim S256x1024x512 (![0, 1, 2] : Fin 3 → Fin S256x1024x512.rank)
  reducesTo_S256x1024x512_S_d0_1_2 : S256x1024x512.ReducesTo [0, 1, 2] S_
  bcast_S_S256x512 : S_.BroadcastsInDim S256x512 (![] : Fin 0 → Fin S256x512.rank)
  scatter_S256x1024_S1_S256_0_1_1_0_wf : ScatterDims.WF S256x1024 S1 S256 [0] [1] [1] 0
  dot_S256x1024_S1024x512_S256x512_1_0_0_1_n_n_wf : DotDims.WF S256x1024 S1024x512 S256x512 [1] [0] [0] [1] [] []

variable [Facts₀]

def scatter_S256x1024_S1_S256_0_1_1_0 : ScatterDims S256x1024 S1 S256 where
  updateWindowDims := [0]
  insertedWindowDims := [1]
  scatterDimsToOperandDims := [1]
  indexVectorDim := 0
  wf := scatter_S256x1024_S1_S256_0_1_1_0_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf

class Facts : Prop extends Facts₀ where

variable [Facts]
-- ==== Proof.FrameK.lean ====
/- The frame certificate of `Kernel`, over the generated launch, schedule and skeleton modules.

   @main is 32 host operations, ONE region (a grid of 2 points, 7 windows) and 6 host operations. The kernel body
   loads each of its five input windows whole, computes, and stores each of its two output windows whole, once.
   So what the body leaves in an output window's buffer is a closed function of the input blocks at the point
   (the store's payload laid over the whole buffer), what it finds in an input window's buffer is that window's
   block at the point whether or not the block was fetched there, and nothing else is touched. From the body's
   triple at a generic point the library's frame theorem for a region between two stretches of host operations
   gives the run, and the run's post read at the two argument arrays is the frame claim:
   `main_arg0` is read by a host concatenation before the region and written by no one;
   `main_arg1` is the array of input window 0, which the pipeline only reads. -/
import proofs.«106268_j88098369176005_2_alg».proof.Proof.Gen.Kernel.Launch
import proofs.«106268_j88098369176005_2_alg».proof.Proof.Gen.Kernel.Skeleton
import proofs.«106268_j88098369176005_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership of an index in a rectangle of these extents recurses once per coordinate of the long axes
set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s buffer contents when the region is entered, as a valuation: the launch memory after the 32 host
    operations before the region, each rewriting its own result buffer. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation before the region allocates anything. -/
theorem hostOps0_fresh : (hostOps0 : List (HloOp τ sig (Elt F))).Forall fun op => op.fresh = ∅ := by
  simp only [List.Forall]; repeat' constructor
/-- Nor does any after it. -/
theorem hostOps1_fresh : (hostOps1 : List (HloOp τ sig (Elt F))).Forall fun op => op.fresh = ∅ := by
  simp only [List.Forall]; repeat' constructor

/-- @main is the host operations before the region, the region, and the host operations after it: run from the
    launch memory it reaches the region with the buffers at `V`, and what is left to run after the region is the
    later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the pipeline's arrays and the unscoped buffers that bypass it: each
    operation's buffers are unscoped TensorCore references, and with nothing prefetched every such reference is
    one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write no array of the pipeline: each writes its own result buffer only, and none of the six result
    buffers is one of the seven arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0` (the concatenation only reads it): the region is entered
    with it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor `main_arg1`: window 0 finds its array as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`, and it is no array of the pipeline: it ends as launched,
    whatever the proof data. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes `main_arg1` either. It IS an array of the pipeline (input window 0's),
    so after the region it holds what the proof data says that array holds after the last point, which for an input
    window is its contents at the region's entry (`hA`): as launched. -/
theorem W_main_arg1 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  exact (Pipeline.withArrays_arr spec0 launch0.win.arr_inj c (V0 m c) _ 0).trans
    (((dats 0 c).arrAt_in 0 rfl _).trans ((hA c 0).trans (V_main_arg1 m c)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is `V`'s (`hA`) and whose body leaves the block in place (`hafter`): at a point that does not fetch
    the window its block index has not moved, so the buffer still holds the same block. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is `V`'s (`hA`) and whose body leaves the block in place (`hafter`): at a point that does not fetch
    the window its block index has not moved, so the buffer still holds the same block. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is `V`'s (`hA`) and whose body leaves the block in place (`hafter`): at a point that does not fetch
    the window its block index has not moved, so the buffer still holds the same block. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is `V`'s (`hA`) and whose body leaves the block in place (`hafter`): at a point that does not fetch
    the window its block index has not moved, so the buffer still holds the same block. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is `V`'s (`hA`) and whose body leaves the block in place (`hafter`): at a point that does not fetch
    the window its block index has not moved, so the buffer still holds the same block. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), the run's post
    read at the two argument arrays. `main_arg0` is no window's array, so it ends as the operations after the region
    leave it, which is as launched; `main_arg1` is input window 0's array, which ends at its entry contents, again as
    launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).1 0).trans (((dats 0 c).arrAt_in 0 rfl _).trans ((hA c 0).trans (V_main_arg1 m c)))⟩) h

/-! ## The body's accesses -/

/-- The whole of each buffer shape the body touches, as a rectangle: every load and store of the body goes through one. -/
abbrev r0_0 : Rect S1024x256 := Rect.unit (s := S1024x256) ![0, 0] S1024x256.size inb_S1024x256_S1024x256_0_0
abbrev r0_1 : Rect S256x1024 := Rect.unit (s := S256x1024) ![0, 0] S256x1024.size inb_S256x1024_S256x1024_0_0
abbrev r0_2 : Rect S1024x1 := Rect.unit (s := S1024x1) ![0, 0] S1024x1.size inb_S1024x1_S1024x1_0_0
abbrev r0_3 : Rect S256x256 := Rect.unit (s := S256x256) ![0, 0] S256x256.size inb_S256x256_S256x256_0_0
abbrev r0_4 : Rect S1x8x128 := Rect.unit (s := S1x8x128) ![0, 0, 0] S1x8x128.size inb_S1x8x128_S1x8x128_0_0_0

/-! ## What the body leaves in each output window's buffer -/

/-- Window 5's staging buffer after the body, from the input windows' blocks: its one store, of the whole buffer.
    The payload is the skeleton's: `tanh`-squashed sum of the two matrix products of the (recast) blocks of windows
    1 and 2 with the two normalised, sign-split parts of window 0's clipped block. -/
def out0_5 (x0 : Vec F S1024x256 .f32) (x1 : Vec F S256x1024 .f32) (x2 : Vec F S256x1024 .f32) : Vec F S256x256 .f32 :=
  View.canon [⟨r0_3, k0_pay17 (k0_pay2 (View.ld x1 r0_1)) (k0_pay3 (View.ld x2 r0_1)) (k0_pay12 (View.ld x0 r0_0)) (k0_pay13 (View.ld x0 r0_0))
    (constant S256x256 .f32 0x00000000#32)⟩]

/-- Its one store is of the whole shape (checked by evaluation), so it covers it. -/
theorem cover0_5 (p0 : Vec F S256x256 .f32) (y : S256x256.Idx) :
    ∃ pc ∈ ([⟨r0_3, p0⟩] : List (View.Piece (Elt F) S256x256 .f32)), y ∈ pc.1.set :=
  View.cover_of_tiled [⟨r0_3, p0⟩] S256x256.size (by rfl) y

/-- Window 6's staging buffer after the body, from the input windows' blocks: its one store, of the whole buffer —
    the sum of the body's two scalar partial results, broadcast. -/
def out0_6 (x0 : Vec F S1024x256 .f32) (x1 : Vec F S256x1024 .f32) (x2 : Vec F S256x1024 .f32) (x3 : Vec F S1024x1 .f32) (x4 : Vec F S1024x1 .f32) : Vec F S1x8x128 .f32 :=
  View.canon [⟨r0_4, k0_pay1
    (k0_pay18 (k0_pay4 (View.ld x3 r0_2)) (k0_pay5 (View.ld x4 r0_2)) (k0_pay14 (View.ld x0 r0_0)) (k0_pay15 (View.ld x0 r0_0)))
    (k0_pay19 (k0_pay2 (View.ld x1 r0_1)) (k0_pay3 (View.ld x2 r0_1)) (k0_pay11 (View.ld x0 r0_0)) (k0_pay12 (View.ld x0 r0_0)) (k0_pay13 (View.ld x0 r0_0))
      (k0_pay14 (View.ld x0 r0_0)) (k0_pay15 (View.ld x0 r0_0)) (constant S256x256 .f32 0x00000000#32))⟩]

/-- Its one store is of the whole shape (checked by evaluation), so it covers it. -/
theorem cover0_6 (p0 : Vec F S1x8x128 .f32) (y : S1x8x128.Idx) :
    ∃ pc ∈ ([⟨r0_4, p0⟩] : List (View.Piece (Elt F) S1x8x128 .f32)), y ∈ pc.1.set :=
  View.cover_of_tiled [⟨r0_4, p0⟩] S1x8x128.size (by rfl) y

/-! ## The body's triple -/

set_option maxHeartbeats 1000000 in
/-- The kernel body on whole staging memrefs, the inputs' at read contents `xW` and the outputs' at anything, runs to
    the continuation holding the inputs' as they were and each output's at `out0_W` of the inputs'. The printed
    function is its skeleton — two parts, then a load and the store of window 6 —, which is run symbolically through
    both parts; the two loads of the output buffers read values no payload uses. What each output's buffer then reads
    is the canon of its one covering store. -/
theorem sound_kernel (c : Dev nD) (E : Set ℕ) (i : grid0.Coords)
    (arg1 : Memref sig .tc .vmem S1024x256 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x1 .f32) (harg4 : arg4.IsWhole)
    (arg5 : Memref sig .tc .vmem S1024x1 .f32) (harg5 : arg5.IsWhole) (arg6 : Memref sig .tc .vmem S256x256 .f32) (harg6 : arg6.IsWhole)
    (arg7 : Memref sig .tc .vmem S1x8x128 .f32) (harg7 : arg7.IsWhole)
    (x0 : Vec F S1024x256 .f32) (x1 : Vec F S256x1024 .f32) (x2 : Vec F S256x1024 .f32) (x3 : Vec F S1024x1 .f32) (x4 : Vec F S1024x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x1 x2 x3 x4)) -∗ K ⟨⟩))
      ⊢ wp frame (wpE (defs₀ (F := F)) Variants.none c none) E
          (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of the one pipeline on core `c`: the arrays as the region finds them (`V`); after the body at
    point `t` each input's buffer at its block and each output's at `out0_W` of the input blocks; the invariant is the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t)
    | ⟨6, _⟩ => out0_6 (iblk m c 0 t) (iblk m c 1 t) (iblk m c 2 t) (iblk m c 3 t) (iblk m c 4 t)
  Φ _ := Pipeline.ΦA spec0 c
  q _ := fullShare
  owed _ := 0

/-- The proof data's arrays are the region-entry contents: the definition projected, so that `V` — a fold over 32
    host operations — is never unfolded to check it. -/
theorem A_eq (c : Dev nD) (w : Fin cfg0.W) : (dats m 0 c).A w = V m c (Pipeline.arrRef spec0 w) := by
  dsimp only [dats]

/-- What the body leaves, window by window (the definition's `match` reduced at each literal window). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`: the invariant, the core's debts, and each window's current staging
    buffer at what it holds before the body, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: the same with each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks (`before0_W`), so `sound_kernel` applies; the
    invariant and the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point: the conjunction over the windows opened one by one. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the library computes
    from the proof data and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.GenH.run_main' depends on axioms: [propext, Classical.choice, Quot.sound] -/
#guard_msgs in #print axioms run_main

/-- THE FRAME: the program runs — terminates, nothing faulting — and both argument arrays end as launched, at any
    float instance `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.GenH

end
-- ==== Proof.FrameI.lean ====
/- The frame certificate of `KernelIdeal`, over the generated launch, schedule and skeleton modules.

   @main is 32 host operations, ONE region (a grid of 2 points, 7 windows) and 6 host operations. The kernel body
   loads each of its five input windows whole, computes, and stores each of its two output windows whole, once.
   So what the body leaves in an output window's buffer is a closed function of the input blocks at the point
   (the store's payload laid over the whole buffer), what it finds in an input window's buffer is that window's
   block at the point whether or not the block was fetched there, and nothing else is touched. From the body's
   triple at a generic point the library's frame theorem for a region between two stretches of host operations
   gives the run, and the run's post read at the two argument arrays is the frame claim:
   `main_arg0` is read by a host concatenation before the region and written by no one;
   `main_arg1` is the array of input window 0, which the pipeline only reads. -/
import proofs.«106268_j88098369176005_2_alg».proof.Proof.Gen.KernelIdeal.Launch
import proofs.«106268_j88098369176005_2_alg».proof.Proof.Gen.KernelIdeal.Skeleton
import proofs.«106268_j88098369176005_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership of an index in a rectangle of these extents recurses once per coordinate of the long axes
set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s buffer contents when the region is entered, as a valuation: the launch memory after the 32 host
    operations before the region, each rewriting its own result buffer. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation before the region allocates anything. -/
theorem hostOps0_fresh : (hostOps0 : List (HloOp τ sig (Elt F))).Forall fun op => op.fresh = ∅ := by
  simp only [List.Forall]; repeat' constructor
/-- Nor does any after it. -/
theorem hostOps1_fresh : (hostOps1 : List (HloOp τ sig (Elt F))).Forall fun op => op.fresh = ∅ := by
  simp only [List.Forall]; repeat' constructor

/-- @main is the host operations before the region, the region, and the host operations after it: run from the
    launch memory it reaches the region with the buffers at `V`, and what is left to run after the region is the
    later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the pipeline's arrays and the unscoped buffers that bypass it: each
    operation's buffers are unscoped TensorCore references, and with nothing prefetched every such reference is
    one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write no array of the pipeline: each writes its own result buffer only, and none of the six result
    buffers is one of the seven arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0` (the concatenation only reads it): the region is entered
    with it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor `main_arg1`: window 0 finds its array as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`, and it is no array of the pipeline: it ends as launched,
    whatever the proof data. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes `main_arg1` either. It IS an array of the pipeline (input window 0's),
    so after the region it holds what the proof data says that array holds after the last point, which for an input
    window is its contents at the region's entry (`hA`): as launched. -/
theorem W_main_arg1 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))]
  exact (Pipeline.withArrays_arr spec0 launch0.win.arr_inj c (V0 m c) _ 0).trans
    (((dats 0 c).arrAt_in 0 rfl _).trans ((hA c 0).trans (V_main_arg1 m c)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is `V`'s (`hA`) and whose body leaves the block in place (`hafter`): at a point that does not fetch
    the window its block index has not moved, so the buffer still holds the same block. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is `V`'s (`hA`) and whose body leaves the block in place (`hafter`): at a point that does not fetch
    the window its block index has not moved, so the buffer still holds the same block. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is `V`'s (`hA`) and whose body leaves the block in place (`hafter`): at a point that does not fetch
    the window its block index has not moved, so the buffer still holds the same block. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is `V`'s (`hA`) and whose body leaves the block in place (`hafter`): at a point that does not fetch
    the window its block index has not moved, so the buffer still holds the same block. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is `V`'s (`hA`) and whose body leaves the block in place (`hafter`): at a point that does not fetch
    the window its block index has not moved, so the buffer still holds the same block. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), the run's post
    read at the two argument arrays. `main_arg0` is no window's array, so it ends as the operations after the region
    leave it, which is as launched; `main_arg1` is input window 0's array, which ends at its entry contents, again as
    launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).1 0).trans (((dats 0 c).arrAt_in 0 rfl _).trans ((hA c 0).trans (V_main_arg1 m c)))⟩) h

/-! ## The body's accesses -/

/-- The whole of each buffer shape the body touches, as a rectangle: every load and store of the body goes through one. -/
abbrev r0_0 : Rect S1024x256 := Rect.unit (s := S1024x256) ![0, 0] S1024x256.size inb_S1024x256_S1024x256_0_0
abbrev r0_1 : Rect S256x1024 := Rect.unit (s := S256x1024) ![0, 0] S256x1024.size inb_S256x1024_S256x1024_0_0
abbrev r0_2 : Rect S1024x1 := Rect.unit (s := S1024x1) ![0, 0] S1024x1.size inb_S1024x1_S1024x1_0_0
abbrev r0_3 : Rect S256x256 := Rect.unit (s := S256x256) ![0, 0] S256x256.size inb_S256x256_S256x256_0_0
abbrev r0_4 : Rect S1x8x128 := Rect.unit (s := S1x8x128) ![0, 0, 0] S1x8x128.size inb_S1x8x128_S1x8x128_0_0_0

/-! ## What the body leaves in each output window's buffer -/

/-- Window 5's staging buffer after the body, from the input windows' blocks: its one store, of the whole buffer.
    The payload is the skeleton's: `tanh`-squashed sum of the two matrix products of the (recast) blocks of windows
    1 and 2 with the two normalised, sign-split parts of window 0's clipped block. -/
def out0_5 (x0 : Vec F S1024x256 .f32) (x1 : Vec F S256x1024 .f32) (x2 : Vec F S256x1024 .f32) : Vec F S256x256 .f32 :=
  View.canon [⟨r0_3, k0_pay17 (k0_pay2 (View.ld x1 r0_1)) (k0_pay3 (View.ld x2 r0_1)) (k0_pay12 (View.ld x0 r0_0)) (k0_pay13 (View.ld x0 r0_0))
    (constant S256x256 .f32 0x00000000#32)⟩]

/-- Its one store is of the whole shape (checked by evaluation), so it covers it. -/
theorem cover0_5 (p0 : Vec F S256x256 .f32) (y : S256x256.Idx) :
    ∃ pc ∈ ([⟨r0_3, p0⟩] : List (View.Piece (Elt F) S256x256 .f32)), y ∈ pc.1.set :=
  View.cover_of_tiled [⟨r0_3, p0⟩] S256x256.size (by rfl) y

/-- Window 6's staging buffer after the body, from the input windows' blocks: its one store, of the whole buffer —
    the sum of the body's two scalar partial results, broadcast. -/
def out0_6 (x0 : Vec F S1024x256 .f32) (x1 : Vec F S256x1024 .f32) (x2 : Vec F S256x1024 .f32) (x3 : Vec F S1024x1 .f32) (x4 : Vec F S1024x1 .f32) : Vec F S1x8x128 .f32 :=
  View.canon [⟨r0_4, k0_pay1
    (k0_pay18 (k0_pay4 (View.ld x3 r0_2)) (k0_pay5 (View.ld x4 r0_2)) (k0_pay14 (View.ld x0 r0_0)) (k0_pay15 (View.ld x0 r0_0)))
    (k0_pay19 (k0_pay2 (View.ld x1 r0_1)) (k0_pay3 (View.ld x2 r0_1)) (k0_pay11 (View.ld x0 r0_0)) (k0_pay12 (View.ld x0 r0_0)) (k0_pay13 (View.ld x0 r0_0))
      (k0_pay14 (View.ld x0 r0_0)) (k0_pay15 (View.ld x0 r0_0)) (constant S256x256 .f32 0x00000000#32))⟩]

/-- Its one store is of the whole shape (checked by evaluation), so it covers it. -/
theorem cover0_6 (p0 : Vec F S1x8x128 .f32) (y : S1x8x128.Idx) :
    ∃ pc ∈ ([⟨r0_4, p0⟩] : List (View.Piece (Elt F) S1x8x128 .f32)), y ∈ pc.1.set :=
  View.cover_of_tiled [⟨r0_4, p0⟩] S1x8x128.size (by rfl) y

/-! ## The body's triple -/

set_option maxHeartbeats 1000000 in
/-- The kernel body on whole staging memrefs, the inputs' at read contents `xW` and the outputs' at anything, runs to
    the continuation holding the inputs' as they were and each output's at `out0_W` of the inputs'. The printed
    function is its skeleton — two parts, then a load and the store of window 6 —, which is run symbolically through
    both parts; the two loads of the output buffers read values no payload uses. What each output's buffer then reads
    is the canon of its one covering store. -/
theorem sound_kernel (c : Dev nD) (E : Set ℕ) (i : grid0.Coords)
    (arg1 : Memref sig .tc .vmem S1024x256 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x1 .f32) (harg4 : arg4.IsWhole)
    (arg5 : Memref sig .tc .vmem S1024x1 .f32) (harg5 : arg5.IsWhole) (arg6 : Memref sig .tc .vmem S256x256 .f32) (harg6 : arg6.IsWhole)
    (arg7 : Memref sig .tc .vmem S1x8x128 .f32) (harg7 : arg7.IsWhole)
    (x0 : Vec F S1024x256 .f32) (x1 : Vec F S256x1024 .f32) (x2 : Vec F S256x1024 .f32) (x3 : Vec F S1024x1 .f32) (x4 : Vec F S1024x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x1 x2 x3 x4)) -∗ K ⟨⟩))
      ⊢ wp frame (wpE (defs₀ (F := F)) Variants.none c none) E
          (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of the one pipeline on core `c`: the arrays as the region finds them (`V`); after the body at
    point `t` each input's buffer at its block and each output's at `out0_W` of the input blocks; the invariant is the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t)
    | ⟨6, _⟩ => out0_6 (iblk m c 0 t) (iblk m c 1 t) (iblk m c 2 t) (iblk m c 3 t) (iblk m c 4 t)
  Φ _ := Pipeline.ΦA spec0 c
  q _ := fullShare
  owed _ := 0

/-- The proof data's arrays are the region-entry contents: the definition projected, so that `V` — a fold over 32
    host operations — is never unfolded to check it. -/
theorem A_eq (c : Dev nD) (w : Fin cfg0.W) : (dats m 0 c).A w = V m c (Pipeline.arrRef spec0 w) := by
  dsimp only [dats]

/-- What the body leaves, window by window (the definition's `match` reduced at each literal window). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`: the invariant, the core's debts, and each window's current staging
    buffer at what it holds before the body, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: the same with each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks (`before0_W`), so `sound_kernel` applies; the
    invariant and the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point: the conjunction over the windows opened one by one. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the library computes
    from the proof data and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.GenH.run_main' depends on axioms: [propext, Classical.choice, Quot.sound] -/
#guard_msgs in #print axioms run_main

/-- THE FRAME: the program runs — terminates, nothing faulting — and both argument arrays end as launched, at any
    float instance `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.GenH

end
-- ==== Proof.LibCrossbar.lean ====
/-
  A resistive crossbar layer, column by column, over the extended reals.

  A crossbar has rows `m` (its inputs) and columns `n` (its outputs); its effective conductances are an
  array `te m n`. A column's entries are normalised by the column's sum of magnitudes (the weights
  `wgt`), and scaled by the column's largest magnitude (the scaled conductances `gt`). A row's sign
  selects which of two input lines drives it: `ae` for a nonnegative entry, `an` for a negative one.
  The column's output is `zz`; the dissipated power of column `n` is the sum over batch entries `b` and
  rows `m` of `gt m n · (line b m n − zz b n)²` (`refCol`). Expanding the square, with `pos² = pos`,
  `neg² = neg`, `pos · neg = 0`, gives the arrangement `tileK`: row sums of the scaled conductances
  against the batch sums of squares of the two lines, plus `Σ z · (G · z − 2 d)`.

  Everything here is a definition over three finite index types; the law joining the two
  arrangements is proved in a module that imports this one.
-/
import Idealize.ShloMosaic.PureOps.Ideal

noncomputable section

namespace Cert.Crossbar

open Idealize.ShloMosaic

variable {B M N : Type} [Fintype B] [Fintype M] [Fintype N]

/-- The magnitude of an effective conductance. -/
def absT (te : M → N → EReal) (m : M) (n : N) : EReal := max (te m n) (-(te m n))

/-- A column's sum of magnitudes. -/
def colsum (te : M → N → EReal) (n : N) : EReal := ∑ m, absT te m n

/-- A column's largest magnitude (the supremum over the rows; `⊥` for an empty column). -/
def colmax (te : M → N → EReal) (n : N) : EReal := Finset.univ.sup fun m => absT te m n

/-- The normalised weight: the magnitude over its column's sum. -/
def wgt (te : M → N → EReal) (m : M) (n : N) : EReal := Ideal.div (absT te m n) (colsum te n)

/-- `1` where the conductance is nonnegative, `0` where it is negative. -/
def pos (te : M → N → EReal) (m : M) (n : N) : EReal := if 0 ≤ te m n then 1 else 0

/-- The complementary mask. -/
def neg (te : M → N → EReal) (m : M) (n : N) : EReal := 1 - pos te m n

/-- The scaled conductance: the magnitude times `gmax` over its column's largest magnitude. -/
def gt (gmax : EReal) (te : M → N → EReal) (m : M) (n : N) : EReal :=
  absT te m n * Ideal.div gmax (colmax te n)

/-- The column's output for batch entry `b`: the two lines against the masked weights. -/
def zz (ae an : B → M → EReal) (te : M → N → EReal) (b : B) (n : N) : EReal :=
  (∑ m, ae b m * (wgt te m n * pos te m n)) + ∑ m, an b m * (wgt te m n * neg te m n)

/-- The same contraction against the masked scaled conductances. -/
def dd (gmax : EReal) (ae an : B → M → EReal) (te : M → N → EReal) (b : B) (n : N) : EReal :=
  (∑ m, ae b m * (gt gmax te m n * pos te m n)) + ∑ m, an b m * (gt gmax te m n * neg te m n)

/-- What row `m` of column `n` sees for batch entry `b`: its driving line less the column's output. -/
def term (ae an : B → M → EReal) (te : M → N → EReal) (b : B) (m : M) (n : N) : EReal :=
  (ae b m * pos te m n + an b m * neg te m n) - zz ae an te b n

/-- The power of column `n`, summed entry by entry. -/
def refCol (gmax : EReal) (ae an : B → M → EReal) (te : M → N → EReal) (n : N) : EReal :=
  ∑ b, ∑ m, (gt gmax te m n * term ae an te b m n) * term ae an te b m n

/-- The squares' part of the expanded arrangement: row sums of the masked scaled conductances against
    per-row numbers `A`, `A'` (the batch sums of squares of the two lines). -/
def s1 (gmax : EReal) (te : M → N → EReal) (A A' : M → EReal) : EReal :=
  (∑ m, (∑ n, gt gmax te m n * pos te m n) * A m) + ∑ m, (∑ n, gt gmax te m n * neg te m n) * A' m

/-- The outputs' part of the expanded arrangement. -/
def s23 (gmax : EReal) (ae an : B → M → EReal) (te : M → N → EReal) : EReal :=
  ∑ b, ∑ n, zz ae an te b n * ((∑ m, gt gmax te m n) * zz ae an te b n - 2 * dd gmax ae an te b n)

/-- The expanded arrangement over all the columns of `te`. -/
def tileK (gmax : EReal) (ae an : B → M → EReal) (te : M → N → EReal) (A A' : M → EReal) : EReal :=
  s1 gmax te A A' + s23 gmax ae an te

end Cert.Crossbar

end
-- ==== Proof.Spec.lean ====
/-
  The two results of the crossbar layer as functions of three arrays: the driving lines `AE`, `AN`
  (batch × rows) and the raw conductances `θ` (rows × columns).

  A raw conductance is first clipped to `[-gmax, gmax]` and set to zero when its magnitude is below
  `gmin` (`teffS`); the layer's activation of a column output `z` is `e1 + 1 · tanh ((z − e3) · e4)`
  (`anewS`); the power is the sum of the columns' powers times the batch factor `B/(B−1)` (`scaleC`).
  The float literals are kept as the words the programs print: the same word on both sides is never
  evaluated.
-/
import proofs.«106268_j88098369176005_2_alg».proof.Proof.LibCrossbar
import Idealize.ShloMosaic.Lib.ValueIdx

noncomputable section

namespace Cert.Spec

open Idealize.ShloMosaic Idealize.ShloMosaic.ValueIdx Cert.Crossbar

/-- The largest conductance, `0.05` as an f32 word (also the activation's offset `e1`). -/
def gmaxC : EReal := Ideal.ofBits .f32 0x3D4CCCCD#32
/-- Its negative. -/
def ngmaxC : EReal := Ideal.ofBits .f32 0xBD4CCCCD#32
/-- The smallest conductance kept, `0.01` as an f32 word. -/
def gminC : EReal := Ideal.ofBits .f32 0x3C23D70A#32
/-- The batch factor `256/255` as an f32 word. -/
def scaleC : EReal := Ideal.ofBits .f32 0x3F808081#32

/-- A raw conductance clipped to `[-gmax, gmax]`. -/
def clipS (θ : EReal) : EReal := min gmaxC (max ngmaxC θ)

/-- The effective conductance: the clipped value, or zero when its magnitude is below `gmin`. -/
def teffS (θ : EReal) : EReal :=
  if max (clipS θ) (-(clipS θ)) < gminC then Ideal.ofBits .f32 0x00000000#32 else clipS θ

/-- The activation of a column output. -/
def anewS (z : EReal) : EReal :=
  gmaxC + Ideal.ofBits .f32 0x3F800000#32 * Ideal.tanh ((z - Ideal.ofBits .f32 0x3DCCCCCD#32) * Ideal.ofBits .f32 0x41200000#32)

/-- A batch × rows array read by coordinates. -/
def lineOf (A : (⟨2, ![256, 1024]⟩ : Shape).Idx → EReal) (b : Fin 256) (m : Fin 1024) : EReal := A (ix2 b m)

/-- The effective conductances of a rows × columns array of raw ones, by coordinates (any number of columns). -/
def teOf {C : Nat} (θ : (⟨2, ![1024, C]⟩ : Shape).Idx → EReal) (m : Fin 1024) (n : Fin C) : EReal := teffS (θ (ix2 m n))

/-- The new activations: entry `(b, n)` is the activation of column `n`'s output for batch entry `b`. -/
def anewAt (AE AN : (⟨2, ![256, 1024]⟩ : Shape).Idx → EReal) (θ : (⟨2, ![1024, 512]⟩ : Shape).Idx → EReal)
    (b : Fin 256) (n : Fin 512) : EReal :=
  anewS (zz (lineOf AE) (lineOf AN) (teOf θ) b n)

/-- The layer's power: the columns' powers summed, times the batch factor. -/
def powerOf (AE AN : (⟨2, ![256, 1024]⟩ : Shape).Idx → EReal) (θ : (⟨2, ![1024, 512]⟩ : Shape).Idx → EReal) : EReal :=
  (∑ n : Fin 512, refCol gmaxC (lineOf AE) (lineOf AN) (teOf θ) n) * scaleC

end Cert.Spec

end
-- ==== Proof.LibCrossbarLaw.lean ====
/-
  The law joining the two arrangements of a crossbar layer's dissipated power: for real-valued
  inputs, conductances and scale, the expanded arrangement `tileK` (row sums of the scaled
  conductances against the batch sums of squares, plus `Σ z · (G · z − 2 d)`) equals the sum over
  the columns of the column powers `refCol`. It also shows that a column's output and power depend
  on that column of the conductances only.
-/
import proofs.«106268_j88098369176005_2_alg».proof.Proof.LibCrossbar
import Mathlib

noncomputable section

namespace Cert.Crossbar

open Idealize.ShloMosaic

variable {B M N N' : Type} [Fintype B] [Fintype M] [Fintype N] [Fintype N']

/-! ### A column's quantities depend on that column only -/

theorem absT_col (te : M → N → EReal) (te' : M → N' → EReal) (n : N) (n' : N')
    (h : ∀ m, te m n = te' m n') (m : M) : absT te m n = absT te' m n' := by
  unfold absT; rw [h m]

theorem colsum_col (te : M → N → EReal) (te' : M → N' → EReal) (n : N) (n' : N')
    (h : ∀ m, te m n = te' m n') : colsum te n = colsum te' n' := by
  unfold colsum; exact Finset.sum_congr rfl fun m _ => absT_col te te' n n' h m

theorem colmax_col (te : M → N → EReal) (te' : M → N' → EReal) (n : N) (n' : N')
    (h : ∀ m, te m n = te' m n') : colmax te n = colmax te' n' := by
  unfold colmax; congr 1; funext m; exact absT_col te te' n n' h m

theorem wgt_col (te : M → N → EReal) (te' : M → N' → EReal) (n : N) (n' : N')
    (h : ∀ m, te m n = te' m n') (m : M) : wgt te m n = wgt te' m n' := by
  unfold wgt; rw [absT_col te te' n n' h m, colsum_col te te' n n' h]

theorem pos_col (te : M → N → EReal) (te' : M → N' → EReal) (n : N) (n' : N')
    (h : ∀ m, te m n = te' m n') (m : M) : pos te m n = pos te' m n' := by
  unfold pos; rw [h m]

theorem neg_col (te : M → N → EReal) (te' : M → N' → EReal) (n : N) (n' : N')
    (h : ∀ m, te m n = te' m n') (m : M) : neg te m n = neg te' m n' := by
  unfold neg; rw [pos_col te te' n n' h m]

theorem gt_col (gmax : EReal) (te : M → N → EReal) (te' : M → N' → EReal) (n : N) (n' : N')
    (h : ∀ m, te m n = te' m n') (m : M) : gt gmax te m n = gt gmax te' m n' := by
  unfold gt; rw [absT_col te te' n n' h m, colmax_col te te' n n' h]

/-- A column's output depends on that column of the conductances only. -/
theorem zz_col {B M N N' : Type} [Fintype B] [Fintype M] [Fintype N] [Fintype N'] (ae an : B → M → EReal) (te : M → N → EReal) (te' : M → N' → EReal)
    (n : N) (n' : N') (h : ∀ m, te m n = te' m n') (b : B) : zz ae an te b n = zz ae an te' b n' := by
  unfold zz
  simp only [wgt_col te te' n n' h, pos_col te te' n n' h, neg_col te te' n n' h]

theorem term_col (ae an : B → M → EReal) (te : M → N → EReal) (te' : M → N' → EReal)
    (n : N) (n' : N') (h : ∀ m, te m n = te' m n') (b : B) (m : M) :
    term ae an te b m n = term ae an te' b m n' := by
  unfold term
  rw [pos_col te te' n n' h m, neg_col te te' n n' h m, zz_col ae an te te' n n' h b]

/-- A column's power depends on that column of the conductances only. -/
theorem refCol_col {B M N N' : Type} [Fintype B] [Fintype M] [Fintype N] [Fintype N'] (gmax : EReal) (ae an : B → M → EReal) (te : M → N → EReal) (te' : M → N' → EReal)
    (n : N) (n' : N') (h : ∀ m, te m n = te' m n') : refCol gmax ae an te n = refCol gmax ae an te' n' := by
  unfold refCol
  simp only [gt_col gmax te te' n n' h, term_col ae an te te' n n' h]

/-! ### The identity over the real numbers -/

/-- Expanding the square: with a mask `p ∈ {0,1}` and its complement, for any numbers `z b`,
    `Σ_b Σ_m g_m (c_bm − z_b)² = Σ_m (g p)_m Σ_b ae_bm² + Σ_m (g (1−p))_m Σ_b an_bm² + Σ_b z_b (G z_b − 2 d_b)`
    where `c_bm = ae_bm p_m + an_bm (1 − p_m)`. -/
private theorem real_law {B M : Type} [Fintype B] [Fintype M] (g p : M → ℝ) (hp : ∀ m, p m = 0 ∨ p m = 1)
    (ae an : B → M → ℝ) (z : B → ℝ) :
    (∑ m, (g m * p m) * ∑ b, ae b m * ae b m) + (∑ m, (g m * (1 - p m)) * ∑ b, an b m * an b m)
      + ∑ b, z b * ((∑ m, g m) * z b
          - 2 * ((∑ m, ae b m * (g m * p m)) + ∑ m, an b m * (g m * (1 - p m))))
    = ∑ b, ∑ m, (g m * ((ae b m * p m + an b m * (1 - p m)) - z b))
          * ((ae b m * p m + an b m * (1 - p m)) - z b) := by
  have h1 : ∑ m, (g m * p m) * ∑ b, ae b m * ae b m
      = ∑ b, ∑ m, (g m * p m) * (ae b m * ae b m) := by
    rw [Finset.sum_comm]; exact Finset.sum_congr rfl fun m _ => Finset.mul_sum _ _ _
  have h2 : ∑ m, (g m * (1 - p m)) * ∑ b, an b m * an b m
      = ∑ b, ∑ m, (g m * (1 - p m)) * (an b m * an b m) := by
    rw [Finset.sum_comm]; exact Finset.sum_congr rfl fun m _ => Finset.mul_sum _ _ _
  have h3 : ∀ b, z b * ((∑ m, g m) * z b
          - 2 * ((∑ m, ae b m * (g m * p m)) + ∑ m, an b m * (g m * (1 - p m))))
      = ∑ m, (z b * g m * z b
          - 2 * z b * (ae b m * (g m * p m) + an b m * (g m * (1 - p m)))) := by
    intro b
    rw [Finset.sum_sub_distrib, ← Finset.mul_sum, Finset.sum_add_distrib, ← Finset.sum_mul,
      ← Finset.mul_sum]
    ring
  rw [h1, h2, ← Finset.sum_add_distrib, ← Finset.sum_add_distrib]
  refine Finset.sum_congr rfl fun b _ => ?_
  rw [h3 b, ← Finset.sum_add_distrib, ← Finset.sum_add_distrib]
  refine Finset.sum_congr rfl fun m _ => ?_
  rcases hp m with h | h <;> rw [h] <;> ring

/-! ### Moving between the reals and the extended reals -/

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

private theorem coe_two : ((2 : ℝ) : EReal) = 2 := by
  have h : ((2 : ℝ) : EReal) = ((1 : ℝ) : EReal) + ((1 : ℝ) : EReal) := by
    rw [← EReal.coe_add]; norm_num
  rw [h, EReal.coe_one, one_add_one_eq_two]

/-- A finite sum of real numbers times a real number distributes, also in the extended reals. -/
private theorem sum_mul_coe {ι : Type} (s : Finset ι) (x : ι → EReal) (hx : ∀ i, ∃ r : ℝ, x i = (r : EReal))
    (a : EReal) (ha : ∃ r : ℝ, a = (r : EReal)) : (∑ i ∈ s, x i) * a = ∑ i ∈ s, x i * a := by
  obtain ⟨r, rfl⟩ := ha
  choose xr hxr using hx
  simp only [hxr, ← EReal.coe_mul, ← coe_sum, Finset.sum_mul]

/-- The real identity, read in the extended reals for real-valued data. -/
private theorem col_law_coe {B M : Type} [Fintype B] [Fintype M] (g p : M → ℝ)
    (hp : ∀ m, p m = 0 ∨ p m = 1) (ae an : B → M → ℝ) (z : B → ℝ) :
    (∑ m, ((g m : EReal) * (p m : EReal)) * ∑ b, (ae b m : EReal) * (ae b m : EReal))
      + (∑ m, ((g m : EReal) * (1 - (p m : EReal))) * ∑ b, (an b m : EReal) * (an b m : EReal))
      + ∑ b, (z b : EReal) * ((∑ m, (g m : EReal)) * (z b : EReal)
          - 2 * ((∑ m, (ae b m : EReal) * ((g m : EReal) * (p m : EReal)))
              + ∑ m, (an b m : EReal) * ((g m : EReal) * (1 - (p m : EReal)))))
    = ∑ b, ∑ m, ((g m : EReal) * (((ae b m : EReal) * (p m : EReal)
              + (an b m : EReal) * (1 - (p m : EReal))) - (z b : EReal)))
          * (((ae b m : EReal) * (p m : EReal)
              + (an b m : EReal) * (1 - (p m : EReal))) - (z b : EReal)) := by
  have h := congrArg (fun x : ℝ => (x : EReal)) (real_law g p hp ae an z)
  simp only [EReal.coe_add, EReal.coe_mul, EReal.coe_sub, coe_sum, EReal.coe_one, coe_two] at h
  exact h

theorem div_coe (x y : ℝ) (hy : y ≠ 0) :
    Ideal.div (x : EReal) (y : EReal) = ((x * y⁻¹ : ℝ) : EReal) := by
  unfold Ideal.div
  rw [if_neg (EReal.coe_ne_zero.2 hy), EReal.coe_mul, EReal.coe_inv]

/-! ### The crossbar's quantities for real-valued conductances -/

section RealData

variable (te : M → N → EReal) (t : M → N → ℝ) (ht : ∀ m n, te m n = (t m n : EReal))
include ht

theorem absT_coe (m : M) (n : N) : absT te m n = ((|t m n| : ℝ) : EReal) := by
  unfold absT
  rw [ht m n, ← EReal.coe_neg, abs_eq_max_neg]
  exact (EReal.coe_strictMono.monotone.map_max).symm

theorem pos_coe (m : M) (n : N) :
    pos te m n = ((if 0 ≤ t m n then (1 : ℝ) else 0 : ℝ) : EReal) := by
  unfold pos
  rw [ht m n]
  by_cases h : 0 ≤ t m n
  · rw [if_pos h, if_pos (EReal.coe_nonneg.2 h)]; rfl
  · rw [if_neg h, if_neg (fun h' => h (EReal.coe_nonneg.1 h'))]; rfl

theorem colsum_coe (n : N) : colsum te n = ((∑ m, |t m n| : ℝ) : EReal) := by
  unfold colsum
  rw [coe_sum]
  exact Finset.sum_congr rfl fun m _ => absT_coe te t ht m n

/-- A column with a nonzero entry has a positive real largest magnitude. -/
theorem colmax_coe_pos (n : N) (m1 : M) (h1 : 0 < |t m1 n|) :
    ∃ c : ℝ, 0 < c ∧ colmax te n = (c : EReal) := by
  haveI : Nonempty M := ⟨m1⟩
  obtain ⟨m0, -, hm0⟩ :=
    Finset.exists_mem_eq_sup Finset.univ Finset.univ_nonempty (fun m => absT te m n)
  refine ⟨|t m0 n|, ?_, ?_⟩
  · have hle : absT te m1 n ≤ Finset.univ.sup (fun m => absT te m n) :=
      Finset.le_sup (f := fun m => absT te m n) (Finset.mem_univ m1)
    rw [hm0, absT_coe te t ht, absT_coe te t ht, EReal.coe_le_coe_iff] at hle
    exact lt_of_lt_of_le h1 hle
  · unfold colmax
    rw [hm0]
    exact absT_coe te t ht m0 n

theorem wgt_coe (n : N) (hS : (∑ m, |t m n|) ≠ 0) (m : M) :
    wgt te m n = ((|t m n| * (∑ m, |t m n|)⁻¹ : ℝ) : EReal) := by
  unfold wgt
  rw [absT_coe te t ht, colsum_coe te t ht, div_coe _ _ hS]

omit ht in
theorem gt_zero_of_absT (gmax : EReal) (m : M) (n : N) (h : absT te m n = 0) :
    gt gmax te m n = 0 := by
  unfold gt; rw [h, zero_mul]

theorem gt_coe_of_colmax (gmax : EReal) (gr : ℝ) (hg : gmax = (gr : EReal)) (n : N) (c : ℝ)
    (hc : 0 < c) (hcm : colmax te n = (c : EReal)) (m : M) :
    gt gmax te m n = ((|t m n| * (gr * c⁻¹) : ℝ) : EReal) := by
  unfold gt
  rw [absT_coe te t ht, hcm, hg, div_coe gr c hc.ne', ← EReal.coe_mul]

/-- The scaled conductances are real numbers, whatever the column. -/
theorem gt_coe (gmax : EReal) (gr : ℝ) (hg : gmax = (gr : EReal)) (m : M) (n : N) :
    ∃ r : ℝ, gt gmax te m n = (r : EReal) := by
  by_cases h : |t m n| = 0
  · refine ⟨0, ?_⟩
    rw [gt_zero_of_absT te gmax m n (by rw [absT_coe te t ht, h]; rfl)]; rfl
  · have hpos : 0 < |t m n| := lt_of_le_of_ne (abs_nonneg _) (Ne.symm h)
    obtain ⟨c, hc, hcm⟩ := colmax_coe_pos te t ht n m hpos
    exact ⟨_, gt_coe_of_colmax te t ht gmax gr hg n c hc hcm m⟩

end RealData

/-! ### One column -/

/-- A column of zeros: its scaled conductances vanish, so both arrangements are zero there,
    whatever the column's outputs are (they need not be finite). -/
private theorem col_zero (gmax : EReal) (ae an : B → M → EReal) (te : M → N → EReal) (A A' : M → EReal)
    (n : N) (h0 : ∀ m, absT te m n = 0) :
    (∑ m, (gt gmax te m n * pos te m n) * A m) + (∑ m, (gt gmax te m n * neg te m n) * A' m)
      + ∑ b, zz ae an te b n
          * ((∑ m, gt gmax te m n) * zz ae an te b n - 2 * dd gmax ae an te b n)
    = refCol gmax ae an te n := by
  have hg : ∀ m, gt gmax te m n = 0 := fun m => gt_zero_of_absT te gmax m n (h0 m)
  unfold refCol dd
  simp only [hg, zero_mul, mul_zero, Finset.sum_const_zero, add_zero, sub_zero]

/-- A column with a nonzero entry: every quantity is a real number and the real identity applies. -/
private theorem col_pos (gmax : EReal) (gr : ℝ) (hg : gmax = (gr : EReal)) (ae an : B → M → EReal)
    (aer anr : B → M → ℝ) (hae : ∀ b m, ae b m = (aer b m : EReal))
    (han : ∀ b m, an b m = (anr b m : EReal)) (te : M → N → EReal) (t : M → N → ℝ)
    (ht : ∀ m n, te m n = (t m n : EReal)) (A A' : M → EReal)
    (hA : ∀ m, A m = ∑ b, ae b m * ae b m) (hA' : ∀ m, A' m = ∑ b, an b m * an b m)
    (n : N) (m1 : M) (h1 : 0 < |t m1 n|) :
    (∑ m, (gt gmax te m n * pos te m n) * A m) + (∑ m, (gt gmax te m n * neg te m n) * A' m)
      + ∑ b, zz ae an te b n
          * ((∑ m, gt gmax te m n) * zz ae an te b n - 2 * dd gmax ae an te b n)
    = refCol gmax ae an te n := by
  obtain ⟨c, hc, hcm⟩ := colmax_coe_pos te t ht n m1 h1
  have hS : (∑ m, |t m n|) ≠ 0 :=
    ne_of_gt (lt_of_lt_of_le h1 (Finset.single_le_sum (f := fun m => |t m n|)
      (fun m _ => abs_nonneg (t m n)) (Finset.mem_univ m1)))
  have hz : ∀ b, ∃ z : ℝ, zz ae an te b n = (z : EReal) := by
    intro b
    refine ⟨(∑ m, aer b m * ((|t m n| * (∑ m, |t m n|)⁻¹) * (if 0 ≤ t m n then (1 : ℝ) else 0)))
      + ∑ m, anr b m * ((|t m n| * (∑ m, |t m n|)⁻¹) * (1 - (if 0 ≤ t m n then (1 : ℝ) else 0))), ?_⟩
    unfold zz neg
    simp only [wgt_coe te t ht n hS, pos_coe te t ht, hae, han, EReal.coe_add, coe_sum,
      EReal.coe_mul, EReal.coe_sub, EReal.coe_one]
  choose z hz using hz
  have hgt := gt_coe_of_colmax te t ht gmax gr hg n c hc hcm
  unfold refCol term dd neg
  simp only [hz, hgt, pos_coe te t ht, hae, han, hA, hA']
  exact col_law_coe (fun m => |t m n| * (gr * c⁻¹)) (fun m => if 0 ≤ t m n then 1 else 0)
    (fun m => by split_ifs <;> simp) aer anr z

/-! ### All the columns -/

/-- The expanded arrangement equals the sum of the column powers, for real-valued data. The scaled
    conductances are real in every column, so the squares' part may be regrouped column by column;
    each column is then either a column of zeros or a column of real numbers. -/
theorem tileK_eq {B M N : Type} [Fintype B] [Fintype M] [Fintype N] (gmax : EReal) (hg : ∃ r : ℝ, gmax = (r : EReal))
    (ae an : B → M → EReal) (te : M → N → EReal)
    (hae : ∀ b m, ∃ r : ℝ, ae b m = (r : EReal)) (han : ∀ b m, ∃ r : ℝ, an b m = (r : EReal)) (hte : ∀ m n, ∃ r : ℝ, te m n = (r : EReal))
    (A A' : M → EReal) (hA : ∀ m, A m = ∑ b, ae b m * ae b m) (hA' : ∀ m, A' m = ∑ b, an b m * an b m) :
    tileK gmax ae an te A A' = ∑ n, refCol gmax ae an te n := by
  obtain ⟨gr, hgr⟩ := hg
  choose aer haer using hae
  choose anr hanr using han
  choose t ht using hte
  have hgt : ∀ m n, ∃ r : ℝ, gt gmax te m n = (r : EReal) :=
    fun m n => gt_coe te t ht gmax gr hgr m n
  have hgp : ∀ m n, ∃ r : ℝ, gt gmax te m n * pos te m n = (r : EReal) := by
    intro m n
    obtain ⟨r, hr⟩ := hgt m n
    exact ⟨r * (if 0 ≤ t m n then 1 else 0), by rw [hr, pos_coe te t ht, EReal.coe_mul]⟩
  have hgq : ∀ m n, ∃ r : ℝ, gt gmax te m n * neg te m n = (r : EReal) := by
    intro m n
    obtain ⟨r, hr⟩ := hgt m n
    refine ⟨r * (1 - (if 0 ≤ t m n then 1 else 0)), ?_⟩
    unfold neg
    rw [hr, pos_coe te t ht, EReal.coe_mul, EReal.coe_sub, EReal.coe_one]
  have hAr : ∀ m, ∃ r : ℝ, A m = (r : EReal) := fun m =>
    ⟨∑ b, aer b m * aer b m, by
      rw [hA m, coe_sum]
      exact Finset.sum_congr rfl fun b _ => by rw [haer, EReal.coe_mul]⟩
  have hAr' : ∀ m, ∃ r : ℝ, A' m = (r : EReal) := fun m =>
    ⟨∑ b, anr b m * anr b m, by
      rw [hA' m, coe_sum]
      exact Finset.sum_congr rfl fun b _ => by rw [hanr, EReal.coe_mul]⟩
  have e1 : ∑ m, (∑ n, gt gmax te m n * pos te m n) * A m
      = ∑ n, ∑ m, (gt gmax te m n * pos te m n) * A m := by
    rw [Finset.sum_comm]
    exact Finset.sum_congr rfl fun m _ => sum_mul_coe _ _ (hgp m) _ (hAr m)
  have e2 : ∑ m, (∑ n, gt gmax te m n * neg te m n) * A' m
      = ∑ n, ∑ m, (gt gmax te m n * neg te m n) * A' m := by
    rw [Finset.sum_comm]
    exact Finset.sum_congr rfl fun m _ => sum_mul_coe _ _ (hgq m) _ (hAr' m)
  have e3 : s23 gmax ae an te = ∑ n, ∑ b, zz ae an te b n
      * ((∑ m, gt gmax te m n) * zz ae an te b n - 2 * dd gmax ae an te b n) := by
    unfold s23
    exact Finset.sum_comm
  unfold tileK s1
  rw [e1, e2, e3, ← Finset.sum_add_distrib, ← Finset.sum_add_distrib]
  refine Finset.sum_congr rfl fun n _ => ?_
  by_cases h0 : ∀ m, |t m n| = 0
  · exact col_zero gmax ae an te A A' n (fun m => by rw [absT_coe te t ht, h0 m]; rfl)
  · obtain ⟨m1, hm1⟩ := not_forall.1 h0
    exact col_pos gmax gr hgr ae an aer anr haer hanr te t ht A A' hA hA' n m1
      (lt_of_le_of_ne (abs_nonneg _) (Ne.symm hm1))

end Cert.Crossbar

end
-- ==== Proof.KernelFinal.lean ====
/-
  From the blocks to the arrays, and the host operations after the region, at the ideal instance.

  The region has two grid points. Point `t` reads tile `t` of the raw conductances (columns `256 t … 256 t + 255` of
  the [1024, 512] array) and the whole of the two line arrays and of their per-row sums of squares; it writes block
  `t` of the activations (columns `256 t … 256 t + 255` of the [256, 512] array) and row `t` of the [2, 8, 128] array
  of powers. Given what the two stores' payloads are at an index as functions of the input blocks (`Pay5`, `Pay6`),
  this module identifies each input block with entries of its array, shows that what each point writes back is the
  block of ONE function of the arrays (a column's output depends on that column of the conductances only), and, the
  blocks covering the arrays, reads the two arrays after the last point entry by entry. The operations after the
  region then add entry `(q, 0, 0)` of the two rows of powers and multiply by the batch factor.
-/
import proofs.«106268_j88098369176005_2_alg».proof.Proof.FrameI
import proofs.«106268_j88098369176005_2_alg».proof.Proof.Spec
import proofs.«106268_j88098369176005_2_alg».proof.Proof.LibCrossbarLaw
import Idealize.ShloMosaic.Lib.Pipeline.Value
import Idealize.ShloMosaic.Lib.IdealHost
import Idealize.ShloMosaic.Lib.ValueIdx

noncomputable section

namespace Cert.KernelFinal

open Cert.KernelIdeal Cert.KernelIdeal.Gen Cert.KernelIdeal.GenH Cert.Spec Cert.Crossbar
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## What is taken from the body's arithmetic -/

/-- The payload of the store into the activations' window, read at an entry of its [256, 256] block: the
    activation of the column's output, the two lines being the blocks of windows 1 and 2 and the conductances
    window 0's block. -/
def Pay5 : Prop := ∀ (x0 : Vec Ideal S1024x256 .f32) (x1 x2 : Vec Ideal S256x1024 .f32) (b : Fin 256) (j : Fin 256),
    k0_pay17 (F := Ideal) (k0_pay2 x1) (k0_pay3 x2) (k0_pay12 x0) (k0_pay13 x0) (constant (F := Ideal) S256x256 .f32 0x00000000#32) (ix2 b j)
      = anewS (zz (lineOf x1) (lineOf x2) (teOf x0) b j)

/-- The payload of the store into the power's window, read at any entry of its [1, 8, 128] block: the expanded
    arrangement of the power of the 256 columns of window 0's block, the per-row sums of squares of the two lines
    being the blocks of windows 3 and 4. -/
def Pay6 : Prop := ∀ (x0 : Vec Ideal S1024x256 .f32) (x1 x2 : Vec Ideal S256x1024 .f32) (x3 x4 : Vec Ideal S1024x1 .f32) (i : S1x8x128.Idx),
    k0_pay1 (F := Ideal) (k0_pay18 (k0_pay4 x3) (k0_pay5 x4) (k0_pay14 x0) (k0_pay15 x0))
        (k0_pay19 (k0_pay2 x1) (k0_pay3 x2) (k0_pay11 x0) (k0_pay12 x0) (k0_pay13 x0) (k0_pay14 x0) (k0_pay15 x0) (constant (F := Ideal) S256x256 .f32 0x00000000#32)) i
      = tileK gmaxC (lineOf x1) (lineOf x2) (teOf x0) (fun m => x3 (ix2 m (0 : Fin 1))) (fun m => x4 (ix2 m (0 : Fin 1)))

/-! ## The grid's two points and the columns they own -/

/-- Column `j` of tile `q`, as a column of the whole [1024, 512] array: tile `q` is columns `256 q … 256 q + 255`. -/
def tileCol (q : Fin 2) (j : Fin 256) : Fin 512 := ⟨q.val * 256 + j.val, by have := q.isLt; have := j.isLt; omega⟩

/-- A grid point as a tile number. -/
def tileOf (t : Fin cfg0.N) : Fin 2 := Fin.cast N_0 t

theorem tileOf_val (t : Fin cfg0.N) : (tileOf t).val = t.val := rfl

/-- A tile number as a grid point. -/
def pointOf (q : Fin 2) : Fin cfg0.N := Fin.cast N_0.symm q

theorem pointOf_val (q : Fin 2) : (pointOf q).val = q.val := rfl

/-- The printed index maps over the grid: windows 1–4 sit at block (0, 0) at both points (each is its whole
    array); windows 0 and 5 move along the columns with the point; window 6 along its leading axis. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val
    ∧ win0_6.index t (0 : Fin 3) = t.val ∧ win0_6.index t (1 : Fin 3) = 0 ∧ win0_6.index t (2 : Fin 3) = 0 :=
  (by decide +kernel : ∀ t : Fin grid0.N, _)

/-! ## Each input block as entries of its array

A block's coordinate on an axis is always (block index) × (block extent) + the coordinate inside the block. -/

/-- Window 0's block at point `t` is columns `256 t … 256 t + 255` of the conductances. -/
theorem iblk0_apply (c : Dev nD) (t : Fin cfg0.N) (x : S1024x256.Idx) (k : S1024x512.Idx)
    (hk0 : (k 0).val = (x 0).val) (hk1 : (k 1).val = t.val * 256 + (x 1).val) :
    (iblk m c 0 t : Vec Ideal S1024x256 .f32) x = (V m c main_arg1 : S1024x512.Idx → EReal) k := by
  obtain ⟨e0, e1, -⟩ := idx_facts t
  unfold iblk
  rw [View.read_apply]
  show V m c main_arg1 (((cfg0.win 0).blk t).view.emb x) = V m c main_arg1 k
  have h : ((cfg0.win 0).blk t).view.emb x = k := by
    funext a; apply Fin.ext
    match a with
    | ⟨0, _⟩ => show win0_0.index t (0 : Fin 2) * 1024 + 1 * (x 0).val = (k 0).val; omega
    | ⟨1, _⟩ => show win0_0.index t (1 : Fin 2) * 256 + 1 * (x 1).val = (k 1).val; omega
  rw [h]

/-- Window 1's block at either point is the whole first line array. -/
theorem iblk1_apply (c : Dev nD) (t : Fin cfg0.N) (x : S256x1024.Idx) :
    (iblk m c 1 t : Vec Ideal S256x1024 .f32) x = (V m c main_v2 : S256x1024.Idx → EReal) x := by
  obtain ⟨-, -, e0, e1, -⟩ := idx_facts t
  unfold iblk
  rw [View.read_apply]
  show V m c main_v2 (((cfg0.win 1).blk t).view.emb x) = V m c main_v2 x
  have h : ((cfg0.win 1).blk t).view.emb x = x := by
    funext a; apply Fin.ext
    match a with
    | ⟨0, _⟩ => show win0_1.index t (0 : Fin 2) * 256 + 1 * (x 0).val = (x 0).val; omega
    | ⟨1, _⟩ => show win0_1.index t (1 : Fin 2) * 1024 + 1 * (x 1).val = (x 1).val; omega
  rw [h]

/-- Window 2's block at either point is the whole second line array. -/
theorem iblk2_apply (c : Dev nD) (t : Fin cfg0.N) (x : S256x1024.Idx) :
    (iblk m c 2 t : Vec Ideal S256x1024 .f32) x = (V m c main_v15 : S256x1024.Idx → EReal) x := by
  obtain ⟨-, -, -, -, e0, e1, -⟩ := idx_facts t
  unfold iblk
  rw [View.read_apply]
  show V m c main_v15 (((cfg0.win 2).blk t).view.emb x) = V m c main_v15 x
  have h : ((cfg0.win 2).blk t).view.emb x = x := by
    funext a; apply Fin.ext
    match a with
    | ⟨0, _⟩ => show win0_2.index t (0 : Fin 2) * 256 + 1 * (x 0).val = (x 0).val; omega
    | ⟨1, _⟩ => show win0_2.index t (1 : Fin 2) * 1024 + 1 * (x 1).val = (x 1).val; omega
  rw [h]

/-- Window 3's block at either point is the whole column of the first line's sums of squares. -/
theorem iblk3_apply (c : Dev nD) (t : Fin cfg0.N) (x : S1024x1.Idx) :
    (iblk m c 3 t : Vec Ideal S1024x1 .f32) x = (V m c main_v18 : S1024x1.Idx → EReal) x := by
  obtain ⟨-, -, -, -, -, -, e0, e1, -⟩ := idx_facts t
  unfold iblk
  rw [View.read_apply]
  show V m c main_v18 (((cfg0.win 3).blk t).view.emb x) = V m c main_v18 x
  have h : ((cfg0.win 3).blk t).view.emb x = x := by
    funext a; apply Fin.ext
    match a with
    | ⟨0, _⟩ => show win0_3.index t (0 : Fin 2) * 1024 + 1 * (x 0).val = (x 0).val; omega
    | ⟨1, _⟩ => show win0_3.index t (1 : Fin 2) * 1 + 1 * (x 1).val = (x 1).val; omega
  rw [h]

/-- Window 4's block at either point is the whole column of the second line's sums of squares. -/
theorem iblk4_apply (c : Dev nD) (t : Fin cfg0.N) (x : S1024x1.Idx) :
    (iblk m c 4 t : Vec Ideal S1024x1 .f32) x = (V m c main_v21 : S1024x1.Idx → EReal) x := by
  obtain ⟨-, -, -, -, -, -, -, -, e0, e1, -⟩ := idx_facts t
  unfold iblk
  rw [View.read_apply]
  show V m c main_v21 (((cfg0.win 4).blk t).view.emb x) = V m c main_v21 x
  have h : ((cfg0.win 4).blk t).view.emb x = x := by
    funext a; apply Fin.ext
    match a with
    | ⟨0, _⟩ => show win0_4.index t (0 : Fin 2) * 1024 + 1 * (x 0).val = (x 0).val; omega
    | ⟨1, _⟩ => show win0_4.index t (1 : Fin 2) * 1 + 1 * (x 1).val = (x 1).val; omega
  rw [h]

theorem hz2 : (![0, 0] : Fin 2 → Nat) = fun _ => 0 := funext fun a => by fin_cases a <;> rfl
theorem hz3 : (![0, 0, 0] : Fin 3 → Nat) = fun _ => 0 := funext fun a => by fin_cases a <;> rfl

/-- The two lines' blocks are the whole line arrays, so they read the same by coordinates. -/
theorem line1_eq (c : Dev nD) (t : Fin cfg0.N) :
    lineOf (iblk m c 1 t : Vec Ideal S256x1024 .f32) = lineOf (V m c main_v2 : S256x1024.Idx → EReal) :=
  funext fun b => funext fun r => iblk1_apply m c t (ix2 b r)
theorem line2_eq (c : Dev nD) (t : Fin cfg0.N) :
    lineOf (iblk m c 2 t : Vec Ideal S256x1024 .f32) = lineOf (V m c main_v15 : S256x1024.Idx → EReal) :=
  funext fun b => funext fun r => iblk2_apply m c t (ix2 b r)

/-- The effective conductances of window 0's block at point `t` are those of tile `t`'s columns of the array. -/
theorem te0_eq (c : Dev nD) (t : Fin cfg0.N) :
    teOf (iblk m c 0 t : Vec Ideal S1024x256 .f32)
      = fun r j => teOf (V m c main_arg1 : S1024x512.Idx → EReal) r (tileCol (tileOf t) j) :=
  funext fun r => funext fun j =>
    congrArg teffS (iblk0_apply m c t (ix2 r j) (ix2 r (tileCol (tileOf t) j)) rfl rfl)

/-- The per-row sums of squares read by rows. -/
theorem sq1_eq (c : Dev nD) (t : Fin cfg0.N) :
    (fun r : Fin 1024 => (iblk m c 3 t : Vec Ideal S1024x1 .f32) (ix2 r (0 : Fin 1)))
      = fun r => (V m c main_v18 : S1024x1.Idx → EReal) (ix2 r (0 : Fin 1)) :=
  funext fun r => iblk3_apply m c t (ix2 r (0 : Fin 1))
theorem sq2_eq (c : Dev nD) (t : Fin cfg0.N) :
    (fun r : Fin 1024 => (iblk m c 4 t : Vec Ideal S1024x1 .f32) (ix2 r (0 : Fin 1)))
      = fun r => (V m c main_v21 : S1024x1.Idx → EReal) (ix2 r (0 : Fin 1)) :=
  funext fun r => iblk4_apply m c t (ix2 r (0 : Fin 1))

/-! ## The activations' array (window 5) -/

/-- The activations as one function of the three arrays the region finds: entry `(b, n)` is the activation of
    column `n`'s output for batch entry `b`. -/
def act (c : Dev nD) : S256x512.Idx → EReal := fun i =>
  anewAt (V m c main_v2) (V m c main_v15) (V m c main_arg1) (i 0) (i 1)

/-- The store's payload at any index of the block, by the index's coordinates. -/
theorem pay5_at (h5 : Pay5) (x0 : Vec Ideal S1024x256 .f32) (x1 x2 : Vec Ideal S256x1024 .f32) (j : S256x256.Idx) :
    k0_pay17 (F := Ideal) (k0_pay2 x1) (k0_pay3 x2) (k0_pay12 x0) (k0_pay13 x0) (constant (F := Ideal) S256x256 .f32 0x00000000#32) j
      = anewS (zz (lineOf x1) (lineOf x2) (teOf x0) (j 0) (j 1)) :=
  (congrArg (k0_pay17 (F := Ideal) (k0_pay2 x1) (k0_pay3 x2) (k0_pay12 x0) (k0_pay13 x0) (constant (F := Ideal) S256x256 .f32 0x00000000#32)) (eq_ix2 j)).trans
    (h5 x0 x1 x2 (j 0) (j 1))

/-- WHAT POINT `t` WRITES BACK is block `t` of `act`: entry `(b, j)` of the block is the activation of column `j` of
    tile `t`, and a column's output depends on that column of the conductances only. -/
theorem flushed5_eq (h5 : Pay5) (c : Dev nD) (t : Fin cfg0.N) :
    (dats m 0 c).flushed 5 t = ((cfg0.win 5).blk t).view.read (Elt Ideal) (act m c) := by
  show (cfg0.win 5).cut (grid0.coords t) ((dats m 0 c).after 5 t) = _
  rw [after0_5]
  unfold out0_5
  rw [View.canon_unit_zero hz2]
  simp only [View.ld_unit_zero (S := S1024x256) hz2, View.ld_unit_zero (S := S256x1024) hz2]
  obtain ⟨-, -, -, -, -, -, -, -, -, -, e0, e1, -⟩ := idx_facts t
  funext j
  show k0_pay17 (F := Ideal) (k0_pay2 (iblk m c 1 t)) (k0_pay3 (iblk m c 2 t)) (k0_pay12 (iblk m c 0 t)) (k0_pay13 (iblk m c 0 t)) (constant (F := Ideal) S256x256 .f32 0x00000000#32) j
      = act m c (((cfg0.win 5).blk t).view.emb j)
  refine (pay5_at h5 (iblk m c 0 t) (iblk m c 1 t) (iblk m c 2 t) j).trans ?_
  rw [line1_eq m c t, line2_eq m c t, te0_eq m c t]
  have hb : ((cfg0.win 5).blk t).view.emb j 0 = j 0 :=
    Fin.ext (show win0_5.index t (0 : Fin 2) * 256 + 1 * (j 0).val = (j 0).val by omega)
  have hn : ((cfg0.win 5).blk t).view.emb j 1 = tileCol (tileOf t) (j 1) :=
    Fin.ext (show win0_5.index t (1 : Fin 2) * 256 + 1 * (j 1).val = t.val * 256 + (j 1).val by omega)
  unfold act anewAt
  rw [hb, hn]
  exact congrArg anewS (zz_col _ _ _ _ (j 1) (tileCol (tileOf t) (j 1)) (fun _ => rfl) (j 0))

/-- An index of the array is in point `t`'s block iff each coordinate is in the block's range on its axis. -/
theorem mem_blk5 (t : Fin cfg0.N) (i : S256x512.Idx) :
    i ∈ ((cfg0.win 5).blk t).view.set ↔ ∀ a : Fin 2, win0_5.index t a * S256x256.size a ≤ (i a).val ∧ (i a).val < win0_5.index t a * S256x256.size a + S256x256.size a := by
  show i ∈ ((View.whole main_v22_0).slice (win0_5.rect t)).set ↔ _
  rw [View.set_slice_whole, Rect.mem_set_unit]
  exact Iff.rfl

/-- Every entry `(b, n)` is in the block of the point `n / 256`. -/
theorem cover5 (i : S256x512.Idx) : ∃ t : Fin cfg0.N, (cfg0.win 5).flush t = true ∧ i ∈ ((cfg0.win 5).blk t).view.set := by
  have hi0 : (i 0).val < 256 := (i 0).isLt
  have hi1 : (i 1).val < 512 := (i 1).isLt
  obtain ⟨t, ht⟩ : ∃ t : Fin cfg0.N, t.val = (i 1).val / 256 := ⟨pointOf ⟨(i 1).val / 256, by omega⟩, rfl⟩
  obtain ⟨-, -, -, -, -, -, -, -, -, -, e0, e1, -⟩ := idx_facts t
  refine ⟨t, flush0_5 t, ?_⟩
  rw [mem_blk5]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 256 ≤ (i 1).val ∧ (i 1).val < win0_5.index t (1 : Fin 2) * 256 + 256; omega

/-- So after the last point the activations' array is `act`. -/
theorem final5_arr (h5 : Pay5) (c : Dev nD) : (dats m 0 c).arrAt 5 cfg0.N = act m c :=
  (dats m 0 c).arrAt_eq_of_cover 5 (act m c) (fun t _ => flushed5_eq m h5 c t) cover5

/-- Entry by entry. -/
theorem final5 (h5 : Pay5) (c : Dev nD) (b : Fin 256) (n : Fin 512) :
    (dats m 0 c).arrAt 5 cfg0.N (ix2 b n) = anewAt (V m c main_v2) (V m c main_v15) (V m c main_arg1) b n :=
  congrFun (final5_arr m h5 c) (ix2 b n)

/-! ## The power's array (window 6) -/

/-- The power's array as one function of the arrays the region finds: row `q` of the [2, 8, 128] array holds, at
    every one of its 8 × 128 entries, the expanded arrangement of the power of tile `q`'s 256 columns. -/
def pow (c : Dev nD) : S2x8x128.Idx → EReal := fun i =>
  tileK gmaxC (lineOf (V m c main_v2 : S256x1024.Idx → EReal)) (lineOf (V m c main_v15 : S256x1024.Idx → EReal))
    (fun r (j : Fin 256) => teOf (V m c main_arg1 : S1024x512.Idx → EReal) r (tileCol (i 0) j))
    (fun r => (V m c main_v18 : S1024x1.Idx → EReal) (ix2 r (0 : Fin 1)))
    (fun r => (V m c main_v21 : S1024x1.Idx → EReal) (ix2 r (0 : Fin 1)))

/-- WHAT POINT `t` WRITES BACK is block `t` of `pow`: the one row `t`, whose tile is window 0's block at `t`. -/
theorem flushed6_eq (h6 : Pay6) (c : Dev nD) (t : Fin cfg0.N) :
    (dats m 0 c).flushed 6 t = ((cfg0.win 6).blk t).view.read (Elt Ideal) (pow m c) := by
  show (cfg0.win 6).cut (grid0.coords t) ((dats m 0 c).after 6 t) = _
  rw [after0_6]
  unfold out0_6
  rw [View.canon_unit_zero hz3]
  simp only [View.ld_unit_zero (S := S1024x256) hz2, View.ld_unit_zero (S := S256x1024) hz2, View.ld_unit_zero (S := S1024x1) hz2]
  obtain ⟨-, -, -, -, -, -, -, -, -, -, -, -, e0, e1, e2⟩ := idx_facts t
  funext j
  show k0_pay1 (F := Ideal) (k0_pay18 (k0_pay4 (iblk m c 3 t)) (k0_pay5 (iblk m c 4 t)) (k0_pay14 (iblk m c 0 t)) (k0_pay15 (iblk m c 0 t)))
        (k0_pay19 (k0_pay2 (iblk m c 1 t)) (k0_pay3 (iblk m c 2 t)) (k0_pay11 (iblk m c 0 t)) (k0_pay12 (iblk m c 0 t)) (k0_pay13 (iblk m c 0 t))
          (k0_pay14 (iblk m c 0 t)) (k0_pay15 (iblk m c 0 t)) (constant (F := Ideal) S256x256 .f32 0x00000000#32)) j
      = pow m c (((cfg0.win 6).blk t).view.emb j)
  refine (h6 (iblk m c 0 t) (iblk m c 1 t) (iblk m c 2 t) (iblk m c 3 t) (iblk m c 4 t) j).trans ?_
  rw [line1_eq m c t, line2_eq m c t, te0_eq m c t, sq1_eq m c t, sq2_eq m c t]
  have hj : (j 0).val < 1 := (j 0).isLt
  have hq : ((cfg0.win 6).blk t).view.emb j 0 = tileOf t :=
    Fin.ext (show win0_6.index t (0 : Fin 3) * 1 + 1 * (j 0).val = t.val by omega)
  unfold pow
  rw [hq]

/-- An index of the array is in point `t`'s block iff each coordinate is in the block's range on its axis. -/
theorem mem_blk6 (t : Fin cfg0.N) (i : S2x8x128.Idx) :
    i ∈ ((cfg0.win 6).blk t).view.set ↔ ∀ a : Fin 3, win0_6.index t a * S1x8x128.size a ≤ (i a).val ∧ (i a).val < win0_6.index t a * S1x8x128.size a + S1x8x128.size a := by
  show i ∈ ((View.whole main_v22_1).slice (win0_6.rect t)).set ↔ _
  rw [View.set_slice_whole, Rect.mem_set_unit]
  exact Iff.rfl

/-- Every entry of row `q` is in the block of the point `q`. -/
theorem cover6 (i : S2x8x128.Idx) : ∃ t : Fin cfg0.N, (cfg0.win 6).flush t = true ∧ i ∈ ((cfg0.win 6).blk t).view.set := by
  have hi0 : (i 0).val < 2 := (i 0).isLt
  have hi1 : (i 1).val < 8 := (i 1).isLt
  have hi2 : (i 2).val < 128 := (i 2).isLt
  obtain ⟨t, ht⟩ : ∃ t : Fin cfg0.N, t.val = (i 0).val := ⟨pointOf ⟨(i 0).val, hi0⟩, rfl⟩
  obtain ⟨-, -, -, -, -, -, -, -, -, -, -, -, e0, e1, e2⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 8 ≤ (i 1).val ∧ (i 1).val < win0_6.index t (1 : Fin 3) * 8 + 8; omega
  | ⟨2, _⟩ => show win0_6.index t (2 : Fin 3) * 128 ≤ (i 2).val ∧ (i 2).val < win0_6.index t (2 : Fin 3) * 128 + 128; omega

/-- So after the last point the power's array is `pow`. -/
theorem final6_arr (h6 : Pay6) (c : Dev nD) : (dats m 0 c).arrAt 6 cfg0.N = pow m c :=
  (dats m 0 c).arrAt_eq_of_cover 6 (pow m c) (fun t _ => flushed6_eq m h6 c t) cover6

/-- Entry by entry. -/
theorem final6 (h6 : Pay6) (c : Dev nD) (q : Fin 2) (r : Fin 8) (l : Fin 128) :
    (dats m 0 c).arrAt 6 cfg0.N (ix3 q r l)
      = tileK gmaxC (lineOf (V m c main_v2)) (lineOf (V m c main_v15))
          (fun m' (j : Fin 256) => teOf (V m c main_arg1) m' (tileCol q j))
          (fun m' => V m c main_v18 (ix2 m' (0 : Fin 1))) (fun m' => V m c main_v21 (ix2 m' (0 : Fin 1))) :=
  congrFun (final6_arr m h6 c) (ix3 q r l)

/-! ## The host operations after the region -/

/-- A sum over the indices of a vector is the sum over its one coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n := ⟨fun i => i 0, fun a => ix1 a, fun i => (eq_ix1 i).symm, fun _ => rfl⟩
  rw [← Equiv.sum_comp e.symm f]
  rfl

/-- The last result of @main, the power: the operations after the region take entry `(q, 0, 0)` of each of the two rows
    of the power's array (a slice, recast to a vector of length 2), add the two to the zero word, and multiply by the
    batch factor. -/
theorem tail_v26 (c : Dev nD) :
    Pipeline.afterTail₀ cfgs (dats m) 0 (V0 m) [hostOps1] c main_v26 ix0
      = (Ideal.ofBits .f32 0x00000000#32
          + (∑ q : Fin 2, (dats m 0 c).arrAt 6 cfg0.N (ix3 q (0 : Fin 8) (0 : Fin 128)) : EReal)) * scaleC := by
  unfold Pipeline.afterTail₀
  show StableHlo.after hostOps1 _ (Proc.devRef .tc main_v26) ix0 = _
  after_results
  rw [Pipeline.withArrays_arr spec0 launch0.win.arr_inj c (V0 m c) _ 6]
  obtain ⟨Y, hY⟩ : ∃ Y : S2x8x128.Idx → EReal, Y = (dats m 0 c).arrAt 6 (cfgs 0).N := ⟨_, rfl⟩
  rw [← hY]
  rw [mulf_apply, hostReduceAdd_apply, Ideal.hostReduceAdd_total reducesTo_S2_S_d0 (fun b => b.elim0)]
  refine congrArg₂ (· * ·) (congrArg₂ (· + ·) rfl ((sum_idx1 _).trans (Finset.sum_congr rfl fun q _ => ?_))) rfl
  show shapeCast S2 (extractStridedSlice S2x1x1 ![0, 0, 0] Y slices_S2x8x128_S2x1x1_0_0_0) shapeCasts_S2x1x1_S2 (ix1 q)
      = Y (ix3 q (0 : Fin 8) (0 : Fin 128))
  refine (shapeCast_apply _ shapeCasts_S2x1x1_S2 (ix1 q) (ix3 q (0 : Fin 1) (0 : Fin 1)) ?_).trans ?_
  · rw [Shape.rowMajor_val_three, Shape.rowMajor_val_one]
    show (q.val * 1 + 0) * 1 + 0 = q.val
    omega
  · have hk : ∀ a : Fin 3, ((ix3 q (0 : Fin 8) (0 : Fin 128) : S2x8x128.Idx) a).val
        = (![0, 0, 0] : Fin 3 → Nat) a + ((ix3 q (0 : Fin 1) (0 : Fin 1) : S2x1x1.Idx) (a.cast rfl)).val := fun a => by
      match a with
      | ⟨0, _⟩ => show q.val = 0 + q.val; omega
      | ⟨1, _⟩ => rfl
      | ⟨2, _⟩ => rfl
    exact extractStridedSlice_apply _ Y slices_S2x8x128_S2x1x1_0_0_0 _ _ hk

end Cert.KernelFinal

end
-- ==== Proof.LibColumnSum.lean ====
/-
  The sum of a two-axis array along its FIRST axis, read at an entry: over the extended reals, started from the zero
  word, the sum of an `[a, b]` array over its rows is at column `j` the sum over the rows `k` of the entries
  `(k, j)`.  It holds for any extents; with `b = 1` it is the total of a one-column array.
-/
import Idealize.ShloMosaic.Lib.ValueIdx
import Idealize.ShloMosaic.PureOps.Ideal.Laws

noncomputable section

open scoped BigOperators

namespace Cert.LibColumnSum

open Idealize.ShloMosaic Idealize.ShloMosaic.ValueIdx

/-- Over the extended reals, the sum of an `[a, b]` array along its first axis, started from the zero word, is at
    column `j` the sum over the rows `k` of the entries `(k, j)`. -/
theorem multiReduction_add_cols_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ k : Fin a, src (ix2 k j) := by
  refine (Ideal.multiReduction_add_single src 0x00000000#32 h hφ hacc (ix1 j)).trans ?_
  refine Finset.sum_congr rfl fun k _ => congrArg src ?_
  funext ax
  apply Fin.ext
  match ax with
  | ⟨0, _⟩ => rfl
  | ⟨1, _⟩ => rfl

end Cert.LibColumnSum

end
-- ==== Proof.LibRowMax.lean ====
/-
  The maximum of a two-axis array along its second axis, read at a row: over the extended reals, started from the word
  of −∞ (which denotes the least extended real), the maximum of an `[a, b]` array along its columns is at row `i` the
  supremum over the columns `k` of the entries `(i, k)`.  It holds for any extents.
-/
import Idealize.ShloMosaic.Lib.ValueIdx
import Idealize.ShloMosaic.PureOps.Ideal.Laws

noncomputable section

open scoped BigOperators

namespace Cert.LibRowMax

open Idealize.ShloMosaic Idealize.ShloMosaic.ValueIdx

/-- The f32 word of −∞ denotes the least extended real. -/
theorem ofBits_neg_inf_f32 : Ideal.ofBits .f32 0xFF800000#32 = (⊥ : EReal) := by
  simp [Ideal.ofBits, Ideal.ieee]

/-- A fold of `max` from the least element is the supremum. -/
theorem fold_max_bot_eq_sup {ι : Type*} (s : Finset ι) (f : ι → EReal) : s.fold max ⊥ f = s.sup f := rfl

/-- Over the extended reals, the maximum of an `[a, b]` array along its second axis, started from the word of −∞, is
    at row `i` the supremum over the columns `k` of the entries `(i, k)`. -/
theorem multiReduction_max_rows_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (i : Fin a) :
    multiReduction .maximumf [1] ⟨1, ![a]⟩ src 0xFF800000#32 h hφ hacc (ix1 i)
      = Finset.univ.sup fun k : Fin b => src (ix2 i k) := by
  refine (Ideal.multiReduction_maximumf_single src 0xFF800000#32 h hφ hacc (ix1 i)).trans ?_
  have hf : (src ∘ h.lift (ix1 i)) = fun k : Fin b => src (ix2 i k) :=
    funext fun k => congrArg src (funext fun ax => Fin.ext (by
      match ax with
      | ⟨0, _⟩ => rfl
      | ⟨1, _⟩ => rfl))
  rw [hf]
  show (Finset.univ : Finset (Fin b)).fold max (Ideal.ofBits .f32 0xFF800000#32) _ = _
  rw [ofBits_neg_inf_f32]
  exact fold_max_bot_eq_sup _ _

end Cert.LibRowMax

end
-- ==== Proof.LibArithMask.lean ====
/-
  Masking by arithmetic on a bit read as a number, over the extended reals.

  A kernel that may not select on a one-bit vector can mask by arithmetic instead: with the bit read as the number
  m ∈ {0, 1} it computes  e · m + (1 − m) · N,  where a reference writes "e where the bit is set, else N".  The two agree
  for ALL extended reals e and N, infinities included: with m = 1 the arithmetic is e · 1 + 0 · N = e, with m = 0 it is
  e · 0 + 1 · N = N, and on the extended reals x · 1 = x, x · 0 = 0 · x = 0 and x + 0 = 0 + x = x have no exception
  (0 · ±∞ is 0 there).  So no finiteness of e or of N is needed.  The constant 1 enters as the single-precision word
  0x3F800000, which denotes the number one.
-/
import Idealize.ShloMosaic.PureOps.Ideal.Laws
import Idealize.ShloMosaic.Lib.ValueIdx

noncomputable section

namespace Cert.LibArithMask

open Idealize.ShloMosaic Idealize.ShloMosaic.ValueIdx

/-- The single-precision word of 1.0 denotes the number one. -/
theorem one_word : Ideal.ofBits .f32 0x3F800000#32 = 1 := by
  simp [Ideal.ofBits, Ideal.ieee, -EReal.coe_mul]; norm_num

/-- A one-bit word read unsigned is the number 1 when it is the set bit … -/
theorem toNat_one : (((1#1 : BitVec 1).toNat : ℝ) : EReal) = 1 := by norm_num

/-- … and the number 0 when it is the clear bit. -/
theorem toNat_zero : (((0#1 : BitVec 1).toNat : ℝ) : EReal) = 0 := by norm_num

/-- THE MASK LAW.  With the bit `w` read as the number 0 or 1, the arithmetic mask `e · w + (1 − w) · N` is the
    selection "`e` if the bit is set, else `N`", for all extended reals `e`, `N`. -/
theorem mask_law (w : BitVec 1) (e N : EReal) :
    e * ((w.toNat : ℝ) : EReal) + (Ideal.ofBits .f32 0x3F800000#32 - ((w.toNat : ℝ) : EReal)) * N
      = Scalar.select w e N := by
  rw [one_word]
  by_cases h : w = 1#1
  · subst h
    rw [select_one]
    have h11 : (1 : EReal) - 1 = 0 := by rw [← EReal.coe_one, ← EReal.coe_sub, sub_self, EReal.coe_zero]
    rw [toNat_one, h11, mul_one, zero_mul, add_zero]
  · have h0 := eq_zero_of_ne_one h
    subst h0
    rw [select_zero, toNat_zero, mul_zero, sub_zero, one_mul, zero_add]

/-- The same law with the number written on the left of the masked value: `w · e + (1 − w) · N`. -/
theorem mask_law_left (w : BitVec 1) (e N : EReal) :
    ((w.toNat : ℝ) : EReal) * e + (Ideal.ofBits .f32 0x3F800000#32 - ((w.toNat : ℝ) : EReal)) * N
      = Scalar.select w e N := by
  rw [mul_comm]; exact mask_law w e N

end Cert.LibArithMask

end
-- ==== Proof.KernelPayTheta.lean ====
/-
  The conductance stages of the crossbar body, each read at an entry (m, j) of the rows × columns block.

  From the raw conductances θ of the block the body forms, entry by entry: the effective conductance (clipped to
  [-gmax, gmax], zero below gmin in magnitude), its magnitude, the magnitude over its column's sum (the weight),
  the two sign masks, the magnitude times gmax over its column's largest magnitude (the scaled conductance), and
  the four products weight · mask, scaled · mask.  A column's sum and a column's maximum are reductions along the
  first axis whose one-row result is spread back over the rows; read at (m, j) they are the sum, and the supremum,
  over the rows k of the entries (k, j).
-/
import proofs.«106268_j88098369176005_2_alg».proof.Proof.Gen.KernelIdeal.Skeleton
import proofs.«106268_j88098369176005_2_alg».proof.Proof.Spec
import proofs.«106268_j88098369176005_2_alg».proof.Proof.LibColumnSum
import proofs.«106268_j88098369176005_2_alg».proof.Proof.LibRowMax
import proofs.«106268_j88098369176005_2_alg».proof.Proof.LibArithMask
import Idealize.ShloMosaic.Lib.ValueLayout

noncomputable section

open scoped BigOperators

namespace Cert.KernelPay

open Cert.KernelIdeal Cert.KernelIdeal.Gen Cert.Spec Cert.Crossbar Idealize.ShloMosaic Idealize.ShloMosaic.ValueIdx

variable [Cert.KernelIdeal.Facts]

/-! ## Scalar facts: a comparison's bit as a choice and as a number -/

/-- Choosing by the bit of x < y is the choice by x < y. -/
theorem select_olt {α : Type} (x y : EReal) (a b : α) :
    Scalar.select (Ideal.cmp .olt x y) a b = if x < y then a else b := by
  by_cases h : x < y
  · have hc : Ideal.cmp .olt x y = 1#1 := by simp [Ideal.cmp, h]
    rw [hc, select_one, if_pos h]
  · have hc : Ideal.cmp .olt x y = 0#1 := by simp [Ideal.cmp, h]
    rw [hc, select_zero, if_neg h]

/-- The bit of y ≤ x, widened to 32 bits and read as a signed integer, is the number 1 or 0. -/
theorem mask_oge (x y : EReal) :
    (((BitVec.setWidth 32 (Ideal.cmp .oge x y)).toInt : ℝ) : EReal) = if y ≤ x then 1 else 0 := by
  by_cases h : y ≤ x
  · have hc : Ideal.cmp .oge x y = 1#1 := by simp [Ideal.cmp, h]
    have h1 : (BitVec.setWidth 32 (1#1 : BitVec 1)).toInt = 1 := by decide
    rw [hc, if_pos h, h1]; norm_num
  · have hc : Ideal.cmp .oge x y = 0#1 := by simp [Ideal.cmp, h]
    have h0 : (BitVec.setWidth 32 (0#1 : BitVec 1)).toInt = 0 := by decide
    rw [hc, if_neg h, h0]; norm_num

/-- A magnitude taken entrywise, read at an index. -/
theorem absf_apply {s : Shape} {φ : FTy} (a : FVec Ideal s φ) (i : s.Idx) : absf a i = max (a i) (-(a i)) := rfl

/-! ## Reductions along the first axis, spread back over the rows -/

/-- Over the extended reals, the maximum of an [a, b] array along its first axis, started from the word of −∞, is
    at column j the supremum over the rows k of the entries (k, j). -/
theorem multiReduction_max_cols_apply {a b : ℕ} (src : FVec Ideal ⟨2, ![a, b]⟩ .f32)
    (h : (⟨2, ![a, b]⟩ : Shape).Reduces [0] ⟨1, ![b]⟩) (hφ : FKind.Formats .f32)
    (hacc : (0xFF800000#32 : BitVec 32) = FKind.maximumf.neutral .f32 hφ) (j : Fin b) :
    multiReduction .maximumf [0] ⟨1, ![b]⟩ src 0xFF800000#32 h hφ hacc (ix1 j)
      = Finset.univ.sup fun k : Fin a => src (ix2 k j) := by
  refine (Ideal.multiReduction_maximumf_single src 0xFF800000#32 h hφ hacc (ix1 j)).trans ?_
  have hf : (src ∘ h.lift (ix1 j)) = fun k : Fin a => src (ix2 k j) :=
    funext fun k => congrArg src (funext fun ax => Fin.ext (by
      match ax with
      | ⟨0, _⟩ => rfl
      | ⟨1, _⟩ => rfl))
  rw [hf]
  show (Finset.univ : Finset (Fin a)).fold max (Ideal.ofBits .f32 0xFF800000#32) _ = _
  rw [LibRowMax.ofBits_neg_inf_f32]
  exact LibRowMax.fold_max_bot_eq_sup _ _

/-- The column sums of a block, as one row spread over the rows: at (m, j) the sum over the rows of column j. -/
theorem colsum_spread_apply (src : FVec Ideal S1024x256 .f32) (m : Fin 1024) (j : Fin 256) :
    broadcastTo S1024x256 (shapeCast S1x256 (multiReduction (F := Ideal) .add [0] S256 src 0x00000000#32
        reduces_S1024x256_S256 (.inl rfl) rfl) shapeCasts_S256_S1x256) broadcasts_S1x256_S1024x256 (ix2 m j)
      = ∑ k : Fin 1024, src (ix2 k j) :=
  (broadcastTo_1b_ab_apply _ broadcasts_S1x256_S1024x256 m j).trans
    ((shapeCast_a_1a_apply _ shapeCasts_S256_S1x256 0 j).trans
      (LibColumnSum.multiReduction_add_cols_apply src reduces_S1024x256_S256 (.inl rfl) rfl j))

/-- The column maxima of a block, as one row: at (0, j) the supremum over the rows of column j. -/
theorem colmax_row_apply (src : FVec Ideal S1024x256 .f32) (j : Fin 256) :
    shapeCast S1x256 (multiReduction (F := Ideal) .maximumf [0] S256 src 0xFF800000#32
        reduces_S1024x256_S256 (.inl rfl) rfl) shapeCasts_S256_S1x256 (ix2 (0 : Fin 1) j)
      = Finset.univ.sup fun k : Fin 1024 => src (ix2 k j) :=
  (shapeCast_a_1a_apply _ shapeCasts_S256_S1x256 0 j).trans
    (multiReduction_max_cols_apply src reduces_S1024x256_S256 (.inl rfl) rfl j)

/-! ## The stages -/

variable (x0 : Vec Ideal S1024x256 .f32) (m : Fin 1024) (j : Fin 256)

/-- The effective conductance. -/
theorem pay6_apply : k0_pay6 (F := Ideal) x0 (ix2 m j) = teOf x0 m j := by
  unfold k0_pay6 teOf teffS clipS gmaxC ngmaxC gminC
  simp only [select_apply, cmpf_apply, absf_apply, broadcast_apply, minimumf_apply, maximumf_apply, Ideal.cmpf_def,
    Ideal.ofBits_def]
  exact select_olt _ _ _ _

/-- Its magnitude. -/
theorem pay7_apply : k0_pay7 (F := Ideal) x0 (ix2 m j) = absT (teOf x0) m j := by
  unfold k0_pay7
  refine (absf_apply _ _).trans ?_
  rw [pay6_apply]
  rfl

/-- The weight: the magnitude over its column's sum of magnitudes. -/
theorem pay8_apply : k0_pay8 (F := Ideal) x0 (ix2 m j) = wgt (teOf x0) m j := by
  unfold k0_pay8
  refine (divf_apply _ _ _).trans ?_
  refine congrArg₂ Ideal.div (pay7_apply x0 m j) ?_
  refine (colsum_spread_apply _ m j).trans ?_
  exact Finset.sum_congr rfl fun k _ => pay7_apply x0 k j

/-- The mask of the nonnegative entries. -/
theorem pay9_apply : k0_pay9 (F := Ideal) x0 (ix2 m j) = pos (teOf x0) m j := by
  unfold k0_pay9
  show (((BitVec.setWidth 32 (Ideal.cmp .oge (k0_pay6 (F := Ideal) x0 (ix2 m j)) (Ideal.ofBits .f32 0x00000000#32))).toInt : ℝ) : EReal) = _
  rw [mask_oge, Ideal.ofBits_zero_f32, pay6_apply]
  rfl

/-- The complementary mask. -/
theorem pay10_apply : k0_pay10 (F := Ideal) x0 (ix2 m j) = neg (teOf x0) m j := by
  unfold k0_pay10
  refine (subf_apply _ _ _).trans ?_
  exact congrArg₂ (· - ·) LibArithMask.one_word (pay9_apply x0 m j)

/-- The scaled conductance: the magnitude times gmax over its column's largest magnitude. -/
theorem pay11_apply : k0_pay11 (F := Ideal) x0 (ix2 m j) = gt gmaxC (teOf x0) m j := by
  unfold k0_pay11
  refine (mulf_apply _ _ _).trans ?_
  refine congrArg₂ (· * ·) (pay7_apply x0 m j) ?_
  refine (broadcastTo_1b_ab_apply _ broadcasts_S1x256_S1024x256 m j).trans ?_
  refine (divf_apply _ _ _).trans ?_
  refine congrArg₂ Ideal.div rfl ?_
  refine (colmax_row_apply _ j).trans ?_
  exact congrArg Finset.univ.sup (funext fun k => pay7_apply x0 k j)

/-- Weight times the nonnegative mask. -/
theorem pay12_apply : k0_pay12 (F := Ideal) x0 (ix2 m j) = wgt (teOf x0) m j * pos (teOf x0) m j := by
  unfold k0_pay12
  exact (mulf_apply _ _ _).trans (congrArg₂ (· * ·) (pay8_apply x0 m j) (pay9_apply x0 m j))

/-- Weight times the negative mask. -/
theorem pay13_apply : k0_pay13 (F := Ideal) x0 (ix2 m j) = wgt (teOf x0) m j * neg (teOf x0) m j := by
  unfold k0_pay13
  exact (mulf_apply _ _ _).trans (congrArg₂ (· * ·) (pay8_apply x0 m j) (pay10_apply x0 m j))

/-- Scaled conductance times the nonnegative mask. -/
theorem pay14_apply : k0_pay14 (F := Ideal) x0 (ix2 m j) = gt gmaxC (teOf x0) m j * pos (teOf x0) m j := by
  unfold k0_pay14
  exact (mulf_apply _ _ _).trans (congrArg₂ (· * ·) (pay11_apply x0 m j) (pay9_apply x0 m j))

/-- Scaled conductance times the negative mask. -/
theorem pay15_apply : k0_pay15 (F := Ideal) x0 (ix2 m j) = gt gmaxC (teOf x0) m j * neg (teOf x0) m j := by
  unfold k0_pay15
  exact (mulf_apply _ _ _).trans (congrArg₂ (· * ·) (pay11_apply x0 m j) (pay10_apply x0 m j))

end Cert.KernelPay

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.KernelPayDots.lean ====
/-
  The two contractions of the crossbar body, read at an entry (b, j) of the batch × columns result.

  The body contracts the two driving lines (batch × rows) against two masked rows × columns arrays and adds the two
  products.  With the masked weights this is the column output z; with the masked scaled conductances it is d.
  Each product is a plain matrix product into the zero accumulator, so at (b, j) it is the sum over the rows k of
  line (b, k) · array (k, j).  The driving lines and the per-row numbers reach the products through shape casts
  that change nothing.
-/
import proofs.«106268_j88098369176005_2_alg».proof.Proof.KernelPayTheta
import proofs.«106268_j88098369176005_2_alg».proof.Proof.LibPlainDot

noncomputable section

open scoped BigOperators

namespace Cert.KernelPay

open Cert.KernelIdeal Cert.KernelIdeal.Gen Cert.Spec Cert.Crossbar Idealize.ShloMosaic Idealize.ShloMosaic.ValueIdx

variable [Cert.KernelIdeal.Facts]

/-! ## The casts that change nothing -/

theorem pay2_eq (x1 : Vec Ideal S256x1024 .f32) : k0_pay2 (F := Ideal) x1 = x1 := by
  unfold k0_pay2
  exact shapeCast_self _ _

theorem pay3_eq (x2 : Vec Ideal S256x1024 .f32) : k0_pay3 (F := Ideal) x2 = x2 := by
  unfold k0_pay3
  exact shapeCast_self _ _

theorem pay4_eq (x3 : Vec Ideal S1024x1 .f32) : k0_pay4 (F := Ideal) x3 = x3 := by
  unfold k0_pay4
  exact shapeCast_self _ _

theorem pay5_eq (x4 : Vec Ideal S1024x1 .f32) : k0_pay5 (F := Ideal) x4 = x4 := by
  unfold k0_pay5
  exact shapeCast_self _ _

/-! ## The word of 2 -/

/-- The single-precision word 0x40000000 denotes the number two. -/
theorem two_word : Ideal.ofBits .f32 0x40000000#32 = 2 := by
  simp [Ideal.ofBits, Ideal.ieee, -EReal.coe_mul]; norm_num; rfl

/-! ## A pair of products into the zero accumulator, added -/

/-- The body's contraction is a plain [256, 1024] × [1024, 256] product. -/
theorem plainD : LibPlainDot.Plain dot_S256x1024_S1024x256_S256x256_1_0_0_1_n_n := ⟨rfl, rfl, rfl, rfl, rfl, rfl⟩

/-- One product into the zero accumulator at (b, j): the sum over the rows. -/
theorem matmul_zero_apply (l : FVec Ideal S256x1024 .f32) (r : FVec Ideal S1024x256 .f32) (b j : Fin 256) :
    matmul dot_S256x1024_S1024x256_S256x256_1_0_0_1_n_n none l r (constant (F := Ideal) S256x256 .f32 0x00000000#32) (ix2 b j)
      = ∑ k : Fin 1024, l (ix2 b k) * r (ix2 k j) :=
  plainD.matmul_zero_apply none l r b j

/-- The sum of the two products, at (b, j). -/
theorem pay16_apply (v2 v4 : FVec Ideal S256x1024 .f32) (v35 v36 : FVec Ideal S1024x256 .f32) (b j : Fin 256) :
    k0_pay16 (F := Ideal) v2 v4 v35 v36 (constant (F := Ideal) S256x256 .f32 0x00000000#32) (ix2 b j)
      = (∑ k : Fin 1024, v2 (ix2 b k) * v35 (ix2 k j)) + ∑ k : Fin 1024, v4 (ix2 b k) * v36 (ix2 k j) := by
  unfold k0_pay16
  refine (addf_apply _ _ _).trans ?_
  exact congrArg₂ (· + ·) (matmul_zero_apply v2 v35 b j) (matmul_zero_apply v4 v36 b j)

variable (x0 : Vec Ideal S1024x256 .f32) (x1 x2 : Vec Ideal S256x1024 .f32) (b j : Fin 256)

/-- With the masked weights: the column output. -/
theorem zz_apply :
    k0_pay16 (F := Ideal) (k0_pay2 x1) (k0_pay3 x2) (k0_pay12 x0) (k0_pay13 x0)
        (constant (F := Ideal) S256x256 .f32 0x00000000#32) (ix2 b j)
      = zz (lineOf x1) (lineOf x2) (teOf x0) b j := by
  refine (pay16_apply _ _ _ _ b j).trans ?_
  unfold zz lineOf
  refine congrArg₂ (· + ·) (Finset.sum_congr rfl fun k _ => ?_) (Finset.sum_congr rfl fun k _ => ?_)
  · exact congrArg₂ (· * ·) (congrFun (pay2_eq x1) _) (pay12_apply x0 k j)
  · exact congrArg₂ (· * ·) (congrFun (pay3_eq x2) _) (pay13_apply x0 k j)

/-- With the masked scaled conductances: the same two products into zero accumulators, added. -/
theorem dd_apply :
    addf (matmul dot_S256x1024_S1024x256_S256x256_1_0_0_1_n_n none (k0_pay2 (F := Ideal) x1) (k0_pay14 x0)
          (constant (F := Ideal) S256x256 .f32 0x00000000#32))
        (matmul dot_S256x1024_S1024x256_S256x256_1_0_0_1_n_n none (k0_pay3 (F := Ideal) x2) (k0_pay15 x0)
          (constant (F := Ideal) S256x256 .f32 0x00000000#32)) (ix2 b j)
      = dd gmaxC (lineOf x1) (lineOf x2) (teOf x0) b j := by
  refine (addf_apply _ _ _).trans ?_
  refine (congrArg₂ (· + ·) (matmul_zero_apply _ _ b j) (matmul_zero_apply _ _ b j)).trans ?_
  unfold dd lineOf
  refine congrArg₂ (· + ·) (Finset.sum_congr rfl fun k _ => ?_) (Finset.sum_congr rfl fun k _ => ?_)
  · exact congrArg₂ (· * ·) (congrFun (pay2_eq x1) _) (pay14_apply x0 k j)
  · exact congrArg₂ (· * ·) (congrFun (pay3_eq x2) _) (pay15_apply x0 k j)

end Cert.KernelPay

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.KernelPaySums.lean ====
/-
  The two scalars of the power, as sums.

  The body reduces an array to one number by viewing it with a leading unit axis, summing along the two other axes
  into a one-entry vector, and taking out that entry: the result is the sum of all the entries, row by row.  The
  squares' part applies this to (row sum of a masked scaled conductance) · (the row's number); the outputs' part
  applies it to z · (G · z − 2 · d), G the column sums of the scaled conductances spread over the batch.
-/
import proofs.«106268_j88098369176005_2_alg».proof.Proof.KernelPayDots
import proofs.«106268_j88098369176005_2_alg».proof.Proof.LibKeepdims

noncomputable section

open scoped BigOperators

namespace Cert.KernelPay

open Cert.KernelIdeal Cert.KernelIdeal.Gen Cert.Spec Cert.Crossbar Idealize.ShloMosaic Idealize.ShloMosaic.ValueIdx

variable [Cert.KernelIdeal.Facts]

/-! ## The sum of all the entries of a three-axis array -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Over the extended reals, a [1, a, b] array summed along its last two axes from the zero word into a one-entry
    vector, that vector viewed as [1, 1, 1] and its entry taken out: the sum over the rows i of the sums over the
    columns j of the entries (0, i, j). -/
theorem total_1ab_apply {a b : ℕ} (src : FVec Ideal ⟨3, ![1, a, b]⟩ .f32)
    (h : (⟨3, ![1, a, b]⟩ : Shape).Reduces [1, 2] ⟨1, ![1]⟩) (hφ : FKind.Formats .f32)
    (hacc : (0x00000000#32 : BitVec 32) = FKind.add.neutral .f32 hφ)
    (hc : (⟨1, ![1]⟩ : Shape).ShapeCasts ⟨3, ![1, 1, 1]⟩)
    (hp : ∀ x, (![0, 0, 0] : Fin 3 → Nat) x < (⟨3, ![1, 1, 1]⟩ : Shape).size x) :
    extractAt ![0, 0, 0] (shapeCast ⟨3, ![1, 1, 1]⟩ (multiReduction .add [1, 2] ⟨1, ![1]⟩ src 0x00000000#32 h hφ hacc) hc) hp
      = ∑ i : Fin a, ∑ j : Fin b, src (ix3 (0 : Fin 1) i j) := by
  unfold extractAt
  refine (shapeCast_apply _ hc _ (ix1 (0 : Fin 1)) ?_).trans ?_
  · rw [Shape.rowMajor_val_one, Shape.rowMajor_val_three]
    rfl
  refine (Ideal.multiReduction_add_total src 0x00000000#32 h (by decide) hφ hacc _).trans ?_
  rw [sum_idx3, Fin.sum_univ_one]

/-! ## The squares' part -/

/-- The sum over the rows of (the row's sum of g) · (the row's number A). -/
theorem rowdot_apply (g : FVec Ideal S1024x256 .f32) (A : FVec Ideal S1024x1 .f32) :
    extractAt ![0, 0, 0]
        (shapeCast S1x1x1
          (multiReduction (F := Ideal) .add [1, 2] S1
            (shapeCast S1x1024x1
              (mulf (shapeCast S1024x1 (multiReduction (F := Ideal) .add [1] S1024 g 0x00000000#32
                  reduces_S1024x256_S1024 (.inl rfl) rfl) shapeCasts_S1024_S1024x1) A)
              shapeCasts_S1024x1_S1x1024x1)
            0x00000000#32 reduces_S1x1024x1_S1 (.inl rfl) rfl)
          shapeCasts_S1_S1x1x1) inpos_S1x1x1_p0_0_0
      = ∑ m : Fin 1024, (∑ n : Fin 256, g (ix2 m n)) * A (ix2 m (0 : Fin 1)) := by
  refine (total_1ab_apply _ reduces_S1x1024x1_S1 (.inl rfl) rfl shapeCasts_S1_S1x1x1 inpos_S1x1x1_p0_0_0).trans ?_
  refine Finset.sum_congr rfl fun m _ => ?_
  rw [Fin.sum_univ_one]
  refine (shapeCast_ab_1ab_apply _ shapeCasts_S1024x1_S1x1024x1 0 m 0).trans ?_
  refine (mulf_apply _ _ _).trans ?_
  refine congrArg₂ (· * ·) ?_ rfl
  refine (LibKeepdims.shapeCast_a_a1_apply _ shapeCasts_S1024_S1024x1 m 0).trans ?_
  exact LibKeepdims.multiReduction_add_rows_apply g reduces_S1024x256_S1024 (.inl rfl) rfl m

/-- The two such sums, added. -/
theorem pay18_apply (v6 v8 : FVec Ideal S1024x1 .f32) (v37 v38 : FVec Ideal S1024x256 .f32) :
    k0_pay18 (F := Ideal) v6 v8 v37 v38
      = (∑ m : Fin 1024, (∑ n : Fin 256, v37 (ix2 m n)) * v6 (ix2 m (0 : Fin 1)))
        + ∑ m : Fin 1024, (∑ n : Fin 256, v38 (ix2 m n)) * v8 (ix2 m (0 : Fin 1)) := by
  unfold k0_pay18
  refine (Ideal.scalar_addf_def _ _).trans ?_
  exact congrArg₂ (· + ·) (rowdot_apply v37 v6) (rowdot_apply v38 v8)

variable (x0 : Vec Ideal S1024x256 .f32) (x1 x2 : Vec Ideal S256x1024 .f32) (x3 x4 : Vec Ideal S1024x1 .f32)

/-- With the masked scaled conductances and the rows' numbers: the squares' part of the power. -/
theorem s1_apply :
    k0_pay18 (F := Ideal) (k0_pay4 x3) (k0_pay5 x4) (k0_pay14 x0) (k0_pay15 x0)
      = s1 gmaxC (teOf x0) (fun m => x3 (ix2 m (0 : Fin 1))) (fun m => x4 (ix2 m (0 : Fin 1))) := by
  refine (pay18_apply _ _ _ _).trans ?_
  unfold s1
  refine congrArg₂ (· + ·) (Finset.sum_congr rfl fun m _ => ?_) (Finset.sum_congr rfl fun m _ => ?_)
  · exact congrArg₂ (· * ·) (Finset.sum_congr rfl fun n _ => pay14_apply x0 m n) (congrFun (pay4_eq x3) _)
  · exact congrArg₂ (· * ·) (Finset.sum_congr rfl fun n _ => pay15_apply x0 m n) (congrFun (pay5_eq x4) _)

/-! ## The outputs' part -/

/-- The column sums of a rows × columns block, as one row spread over the batch: at (b, j) the sum over the rows of
    column j. -/
theorem colsum_batch_apply (src : FVec Ideal S1024x256 .f32) (b j : Fin 256) :
    broadcastTo S256x256 (shapeCast S1x256 (multiReduction (F := Ideal) .add [0] S256 src 0x00000000#32
        reduces_S1024x256_S256 (.inl rfl) rfl) shapeCasts_S256_S1x256) broadcasts_S1x256_S256x256 (ix2 b j)
      = ∑ k : Fin 1024, src (ix2 k j) :=
  (broadcastTo_1b_ab_apply _ broadcasts_S1x256_S256x256 b j).trans
    ((shapeCast_a_1a_apply _ shapeCasts_S256_S1x256 0 j).trans
      (LibColumnSum.multiReduction_add_cols_apply src reduces_S1024x256_S256 (.inl rfl) rfl j))

/-- The sum over the batch and the columns of z · (G · z − 2 · d). -/
theorem s23_apply :
    k0_pay19 (F := Ideal) (k0_pay2 x1) (k0_pay3 x2) (k0_pay11 x0) (k0_pay12 x0) (k0_pay13 x0) (k0_pay14 x0)
        (k0_pay15 x0) (constant (F := Ideal) S256x256 .f32 0x00000000#32)
      = s23 gmaxC (lineOf x1) (lineOf x2) (teOf x0) := by
  unfold k0_pay19
  refine (total_1ab_apply _ reduces_S1x256x256_S1 (.inl rfl) rfl shapeCasts_S1_S1x1x1 inpos_S1x1x1_p0_0_0).trans ?_
  unfold s23
  refine Finset.sum_congr rfl fun b _ => Finset.sum_congr rfl fun j _ => ?_
  refine (shapeCast_ab_1ab_apply _ shapeCasts_S256x256_S1x256x256 0 b j).trans ?_
  refine (mulf_apply _ _ _).trans ?_
  refine congrArg₂ (· * ·) (zz_apply x0 x1 x2 b j) ?_
  refine (subf_apply _ _ _).trans ?_
  refine congrArg₂ (· - ·) ?_ ?_
  · refine (mulf_apply _ _ _).trans ?_
    refine congrArg₂ (· * ·) ?_ (zz_apply x0 x1 x2 b j)
    refine (colsum_batch_apply _ b j).trans ?_
    exact Finset.sum_congr rfl fun m _ => pay11_apply x0 m j
  · refine (mulf_apply _ _ _).trans ?_
    exact congrArg₂ (· * ·) two_word (dd_apply x0 x1 x2 b j)

end Cert.KernelPay

end
-- ==== Proof.KernelPay.lean ====
/-
  The crossbar body's two stored values, read at an index, are the specification's two functions.

  The activations block holds, at (b, j), the activation of the column output z (b, j): a constant plus the
  hyperbolic tangent of the shifted and scaled output.  The power block holds, at every index, the one number
  s1 + s23: the squares' part plus the outputs' part of the expanded power of the block's columns.
-/
import proofs.«106268_j88098369176005_2_alg».proof.Proof.Gen.KernelIdeal.Skeleton
import proofs.«106268_j88098369176005_2_alg».proof.Proof.Spec
import proofs.«106268_j88098369176005_2_alg».proof.Proof.KernelPaySums

noncomputable section

open scoped BigOperators

namespace Cert.KernelPay

open Cert.KernelIdeal Cert.KernelIdeal.Gen Cert.Spec Cert.Crossbar Idealize.ShloMosaic Idealize.ShloMosaic.ValueIdx

variable [Cert.KernelIdeal.Facts]

/-- A hyperbolic tangent taken entrywise, read at an index. -/
theorem tanh_apply {s : Shape} {φ : FTy} (a : FVec Ideal s φ) (i : s.Idx) : tanh a i = Ideal.tanh (a i) := rfl

/-- The activations block at (b, j): the activation of the column output. -/
theorem anew_pay (x0 : Vec Ideal S1024x256 .f32) (x1 x2 : Vec Ideal S256x1024 .f32) (b : Fin 256) (j : Fin 256) :
    k0_pay17 (F := Ideal) (k0_pay2 x1) (k0_pay3 x2) (k0_pay12 x0) (k0_pay13 x0) (constant (F := Ideal) S256x256 .f32 0x00000000#32) (ix2 b j)
      = anewS (zz (lineOf x1) (lineOf x2) (teOf x0) b j) := by
  unfold k0_pay17 anewS gmaxC
  refine (addf_apply _ _ _).trans ?_
  refine congrArg₂ (· + ·) rfl ?_
  refine (mulf_apply _ _ _).trans ?_
  refine congrArg₂ (· * ·) rfl ?_
  refine (tanh_apply _ _).trans ?_
  refine congrArg Ideal.tanh ?_
  refine (mulf_apply _ _ _).trans ?_
  refine congrArg₂ (· * ·) ?_ rfl
  refine (subf_apply _ _ _).trans ?_
  exact congrArg₂ (· - ·) (zz_apply x0 x1 x2 b j) rfl

/-- The power block at any index: the squares' part plus the outputs' part. -/
theorem power_pay (x0 : Vec Ideal S1024x256 .f32) (x1 x2 : Vec Ideal S256x1024 .f32) (x3 x4 : Vec Ideal S1024x1 .f32) (i : S1x8x128.Idx) :
    k0_pay1 (F := Ideal) (k0_pay18 (k0_pay4 x3) (k0_pay5 x4) (k0_pay14 x0) (k0_pay15 x0))
        (k0_pay19 (k0_pay2 x1) (k0_pay3 x2) (k0_pay11 x0) (k0_pay12 x0) (k0_pay13 x0) (k0_pay14 x0) (k0_pay15 x0) (constant (F := Ideal) S256x256 .f32 0x00000000#32)) i
      = tileK gmaxC (lineOf x1) (lineOf x2) (teOf x0) (fun m => x3 (ix2 m (0 : Fin 1))) (fun m => x4 (ix2 m (0 : Fin 1))) := by
  unfold k0_pay1 tileK
  refine (broadcast_apply _ i).trans ?_
  refine (Ideal.scalar_addf_def _ _).trans ?_
  exact congrArg₂ (· + ·) (s1_apply x0 x3 x4) (s23_apply x0 x1 x2)

end Cert.KernelPay

end
-- ==== Proof.LibRealEntries.lean ====
/-
  Entries that are real numbers, and the array operations that keep them so (at the ideal instance, where a float is
  an extended real). A sum, a product, a maximum and a finite sum of real numbers are real; hence entrywise sums,
  products and maxima of arrays with real entries, their broadcasts, a gather from such an array (each result entry
  is an entry of the operand), an accumulating scatter of such updates into such an operand (each entry gains
  finitely many real updates), and a contraction of two such arrays (finite sums of real products from zero) all
  have real entries. The reciprocal square root of an extended real that is at least one is real (it is 0 at +∞), so a
  reciprocal square root of anything clamped below at one is real, whatever was clamped.
-/
import Idealize.ShloMosaic.PureOps.Ideal.Laws

noncomputable section

namespace Cert.LibRealEntries

open Idealize.ShloMosaic Idealize.ShloMosaic.TcCoe

/-- An extended real that is a real number. -/
def IsReal (x : EReal) : Prop := ∃ y : ℝ, x = (y : EReal)

theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  obtain ⟨a, rfl⟩ := hx; obtain ⟨b, rfl⟩ := hy; exact ⟨Max.max a b, (EReal.coe_strictMono.monotone.map_max).symm⟩
theorem IsReal.sum {ι : Type} (s : Finset ι) (f : ι → EReal) (h : ∀ i ∈ s, IsReal (f i)) : IsReal (∑ i ∈ s, f i) :=
  Finset.sum_induction f IsReal (fun _ _ => IsReal.add) IsReal.zero h

/-- The reciprocal square root of an extended real that is at least one is a real number. -/
theorem isReal_rsqrt_of_one_le {x : EReal} (h : 1 ≤ x) : IsReal (Ideal.rsqrt x) := by
  induction x using EReal.rec with
  | bot =>
    have hlt : (⊥ : EReal) < 1 := by exact_mod_cast EReal.bot_lt_coe 1
    exact absurd h (not_le.mpr hlt)
  | top => exact ⟨0, rfl⟩
  | coe r =>
    have hr : (1 : ℝ) ≤ r := by exact_mod_cast h
    show IsReal (if r < 0 then ⊥ else if r = 0 then ⊤ else (((Real.sqrt r)⁻¹ : ℝ) : EReal))
    rw [if_neg (by linarith), if_neg (by linarith)]
    exact ⟨_, rfl⟩

theorem isReal_zero_word : IsReal (Ideal.ofBits .f32 0x00000000#32) := by
  rw [Ideal.ofBits_zero_f32]; exact IsReal.zero

/-! ## The operations keep entries real (any shapes) -/

section Generic
variable {s t si u sl sr so : Shape} {w : Nat}

theorem real_maximumf (a b : FVec Ideal s .f32) (ha : ∀ i, IsReal (a i)) (hb : ∀ i, IsReal (b i)) (i : s.Idx) :
    IsReal (maximumf a b i) := (ha i).max (hb i)
theorem real_addf (a b : FVec Ideal s .f32) (ha : ∀ i, IsReal (a i)) (hb : ∀ i, IsReal (b i)) (i : s.Idx) :
    IsReal (addf a b i) := (ha i).add (hb i)
theorem real_mulf (a b : FVec Ideal s .f32) (ha : ∀ i, IsReal (a i)) (hb : ∀ i, IsReal (b i)) (i : s.Idx) :
    IsReal (mulf a b i) := (ha i).mul (hb i)
theorem real_bcast (dims : Fin s.rank → Fin t.rank) (h : s.BroadcastsInDim t dims) (x : FVec Ideal s .f32)
    (hx : ∀ i, IsReal (x i)) (j : t.Idx) : IsReal (broadcastInDim t dims h x j) := hx _
theorem real_gather (d : GatherDims s si t) (x : FVec Ideal s .f32) (idx : IVec si w) (hx : ∀ i, IsReal (x i)) (j : t.Idx) :
    IsReal (Host.gather d x idx j) := hx _
theorem real_scatterAdd (d : ScatterDims s si u) (x : FVec Ideal s .f32) (idx : IVec si w) (upd : FVec Ideal u .f32)
    (hx : ∀ i, IsReal (x i)) (hu : ∀ j, IsReal (upd j)) (i : s.Idx) : IsReal (Host.scatterAdd d x idx upd i) :=
  (hx i).add (IsReal.sum _ _ fun j _ => hu j)
theorem real_dot (d : DotDims sl sr so) (prec : Option ContractPrecision) (l : FVec Ideal sl .f32) (r : FVec Ideal sr .f32)
    (hl : ∀ i, IsReal (l i)) (hr : ∀ i, IsReal (r i)) (j : so.Idx) : IsReal (Host.dotGeneral d prec l r j) :=
  IsReal.zero.add (IsReal.sum _ _ fun k _ => (hl _).mul (hr _))
/-- A reciprocal square root of a value clamped below at one. -/
theorem real_rsqrt_clamp (one y : FVec Ideal s .f32) (h1 : ∀ i, one i = 1) (i : s.Idx) :
    IsReal (Host.rsqrt (maximumf one y) i) := by
  show IsReal (Ideal.rsqrt (Max.max (one i) (y i)))
  rw [h1 i]; exact isReal_rsqrt_of_one_le (le_max_left _ _)

end Generic

end Cert.LibRealEntries

end
-- ==== Proof.HostChain.lean ====
/-
  The two driving lines of the crossbar as the host computes them from the previous activations `x`
  (batch × 1022): `aextK x` appends to every row a one and a zero (batch × 1024); `anegK x` is its
  inverted image `−(e1 + 1 · tanh ((· − 0) · e4))` with the last column set to zero. Neither is ever
  read at an index here: what the power law needs of them is only that every entry is a real number —
  an entry of a join is an entry of one of its pieces, an entry of a column overwrite is an entry of
  the operand or of the update, and a hyperbolic tangent is real at every extended real.
-/
import proofs.«106268_j88098369176005_2_alg».proof.KernelIdeal
import proofs.«106268_j88098369176005_2_alg».proof.Proof.LibRealEntries
import Idealize.ShloMosaic.Lib.Pipeline.Value
import Idealize.ShloMosaic.Lib.ValueIdx
import Idealize.ShloMosaic.Lib.IdealHost
import proofs.«106268_j88098369176005_2_alg».proof.Proof.LibKeepdims

noncomputable section

namespace Cert.HostChain

open Cert.KernelIdeal Cert.KernelIdeal.Facts₀ Idealize.ShloMosaic Idealize.ShloMosaic.ValueIdx Cert.LibRealEntries

variable [Cert.KernelIdeal.Facts]

section Defs
variable {F : FTy → Type} [FloatOps F]

/-- The previous activations with a column of ones and a column of zeros appended. -/
def aextK (x : FVec F S256x1022 .f32) : FVec F S256x1024 .f32 :=
  concatenate S256x1024 1 [⟨S256x1022, x⟩,
    ⟨S256x1, broadcastInDim S256x1 ![] bcast_S_S256x1 (constant S_ .f32 0x3F800000#32)⟩,
    ⟨S256x1, broadcastInDim S256x1 ![] bcast_S_S256x1 (constant S_ .f32 0x00000000#32)⟩]
    concatenates_S256x1022_S256x1_S256x1_S256x1024_d1

/-- The inverted line before its last column is overwritten. -/
def invK (a : FVec F S256x1024 .f32) : FVec F S256x1024 .f32 :=
  Host.negf (addf (broadcastInDim S256x1024 ![] bcast_S_S256x1024 (constant S_ .f32 0x3D4CCCCD#32))
    (mulf (broadcastInDim S256x1024 ![] bcast_S_S256x1024 (constant S_ .f32 0x3F800000#32))
      (Host.tanh (mulf (subf a (broadcastInDim S256x1024 ![] bcast_S_S256x1024 (constant S_ .f32 0x00000000#32)))
        (broadcastInDim S256x1024 ![] bcast_S_S256x1024 (constant S_ .f32 0x41200000#32))))))

/-- The inverted line: `invK` of the extended activations with column 1023 set to zero. -/
def anegK (x : FVec F S256x1022 .f32) : FVec F S256x1024 .f32 :=
  Host.scatter scatter_S256x1024_S1_S256_0_1_1_0 (fun _ b => b) (invK (aextK x))
    (broadcastInDim S1 ![] bcast_S_S1 (constantI S_ 32 1023#32))
    (broadcastInDim S256 ![] bcast_S_S256 (constant S_ .f32 0x00000000#32))

/-- The batch sums of squares of a line, as a one-column array. -/
def sqColK (A : FVec F S256x1024 .f32) : FVec F S1024x1 .f32 :=
  shapeCast S1024x1 (Host.reduceAdd (mulf A A) (constant S_ .f32 0x00000000#32) reducesTo_S256x1024_S1024_d0 h_S_)
    shapeCasts_S1024_S1024x1

end Defs

/-- Row `r` of the sums of squares is the sum over the batch of the squares of column `r` of the line. -/
theorem sqColK_apply (A : FVec Ideal S256x1024 .f32) (r : Fin 1024) :
    sqColK A (ix2 r (0 : Fin 1)) = ∑ b : Fin 256, A (ix2 b r) * A (ix2 b r) := by
  unfold sqColK
  rw [Cert.LibKeepdims.shapeCast_a_a1_apply]
  simp only [Host.reduceAdd, Ideal.hostReduceAdd_def]
  rw [Ideal.hostReduceAdd_single reducesTo_S256x1024_S1024_d0 (by decide)]
  rw [show (constant (F := Ideal) S_ .f32 0x00000000#32) (Shape.Idx.first h_S_) = 0 from Ideal.ofBits_zero_f32, zero_add]
  refine Finset.sum_congr rfl fun k _ => ?_
  show A _ * A _ = _
  have e : ∀ (q : S256x1024.Idx), (q 0).val = k.val → (q 1).val = r.val → A q = A (ix2 ⟨k.val, k.isLt⟩ r) := by
    intro q h0 h1
    exact congrArg A (funext fun a => Fin.ext (by match a with | ⟨0, _⟩ => exact h0 | ⟨1, _⟩ => exact h1))
  rw [e _ rfl rfl]
  rfl

/-! ## Every entry is a real number -/

/-- A finite float word (its exponent field is not all ones) denotes a real number. -/
theorem isReal_ieee (e m : Nat) {w : Nat} (b : BitVec w) (h : (b.extractLsb' m e).toNat ≠ 2 ^ e - 1) :
    IsReal (Ideal.ieee e m b) := by
  unfold Ideal.ieee
  simp only [if_neg h]
  split_ifs <;> exact ⟨_, rfl⟩

theorem isReal_word_gmax : IsReal (Ideal.ofBits .f32 0x3D4CCCCD#32) :=
  isReal_ieee 8 23 (0x3D4CCCCD#32 : BitVec 32) (by decide)
theorem isReal_word_one : IsReal (Ideal.ofBits .f32 0x3F800000#32) :=
  isReal_ieee 8 23 (0x3F800000#32 : BitVec 32) (by decide)

/-- The hyperbolic tangent is a real number at every extended real. -/
theorem isReal_tanh (x : EReal) : IsReal (Ideal.tanh x) := by
  induction x using EReal.rec with
  | bot => exact ⟨-1, by rw [show Ideal.tanh (⊥ : EReal) = -1 from rfl]; simp⟩
  | coe r => exact ⟨Real.tanh r, rfl⟩
  | top => exact ⟨1, by rw [show Ideal.tanh (⊤ : EReal) = 1 from rfl]; simp⟩

theorem isReal_neg {x : EReal} (hx : IsReal x) : IsReal (-x) := by
  obtain ⟨a, rfl⟩ := hx; exact ⟨-a, (EReal.coe_neg a).symm⟩

/-- The inverted line is real everywhere, whatever it inverts. -/
theorem invK_real (a : FVec Ideal S256x1024 .f32) (i : S256x1024.Idx) : IsReal (invK a i) := by
  show IsReal (-(Ideal.ofBits .f32 0x3D4CCCCD#32 + Ideal.ofBits .f32 0x3F800000#32 *
    Ideal.tanh ((a i - Ideal.ofBits .f32 0x00000000#32) * Ideal.ofBits .f32 0x41200000#32)))
  exact isReal_neg (isReal_word_gmax.add (isReal_word_one.mul (isReal_tanh _)))

/-- An overwrite of entries by updates: every entry of the result is an entry of the operand or of the updates. -/
theorem scatter_set_entry {α : Type} {s si u : Shape} {w : Nat} (d : ScatterDims s si u) (x : s.Idx → α) (idx : IVec si w)
    (upd : u.Idx → α) (P : α → Prop) (hx : ∀ i, P (x i)) (hu : ∀ j, P (upd j)) (i : s.Idx) :
    P (Host.scatter d (fun _ b => b) x idx upd i) := by
  unfold Host.scatter
  suffices h : ∀ (l : List (Fin u.numel)) (r : s.Idx → α), (∀ i, P (r i)) →
      ∀ i, P (l.foldl (fun r n =>
        match d.resultIdx? (u.rowMajor.symm n) idx with
        | some i => fun i' => if i' = i then (fun _ b => b) (r i) (upd (u.rowMajor.symm n)) else r i'
        | none => r) r i) from h _ x hx i
  intro l
  induction l with
  | nil => intro r hr i; exact hr i
  | cons n l ih =>
    intro r hr i
    rw [List.foldl_cons]
    refine ih _ ?_ i
    intro i'
    cases d.resultIdx? (u.rowMajor.symm n) idx with
    | none => exact hr i'
    | some i0 =>
      dsimp only
      split_ifs
      · exact hu _
      · exact hr i'

/-- A join of arrays: every entry of the result is an entry of one of the pieces. -/
theorem concatenate_entry {α : Type} {t : Shape} (a : Fin t.rank) (xs : List ((s : Shape) × (s.Idx → α)))
    (h : Shape.Concatenates (xs.map (·.1)) t a) (P : α → Prop) (hP : ∀ p ∈ xs, ∀ j, P (p.2 j)) (i : t.Idx) :
    P (concatenate t a xs h i) := by
  unfold concatenate
  dsimp only
  exact hP _ (List.getElem_mem _) _

/-- The extended activations are real when the activations are. -/
theorem aextK_real (x : FVec Ideal S256x1022 .f32) (hx : ∀ i, IsReal (x i)) (i : S256x1024.Idx) : IsReal (aextK x i) := by
  refine concatenate_entry _ _ _ IsReal ?_ i
  intro p hp j
  simp only [List.mem_cons, List.mem_nil_iff, or_false] at hp
  rcases hp with rfl | rfl | rfl
  · exact hx j
  · exact isReal_word_one
  · exact isReal_zero_word

/-- The inverted line is real everywhere. -/
theorem anegK_real (x : FVec Ideal S256x1022 .f32) (i : S256x1024.Idx) : IsReal (anegK x i) :=
  scatter_set_entry _ _ _ _ IsReal (invK_real _) (fun _ => isReal_zero_word) i

end Cert.HostChain

end
-- ==== Proof.HostPrefix.lean ====
/-
  What the region finds in the four arrays the host computes before it: the extended activations,
  their inverted image, and the two columns of batch sums of squares of those lines.
-/
import proofs.«106268_j88098369176005_2_alg».proof.Proof.FrameI
import proofs.«106268_j88098369176005_2_alg».proof.Proof.HostChain
import Idealize.ShloMosaic.Lib.StableHlo.Run
import Idealize.ShloMosaic.PureOps.Ideal.Laws

noncomputable section

namespace Cert.HostPrefix

open Cert.KernelIdeal Cert.KernelIdeal.Gen Cert.KernelIdeal.GenH Cert.KernelIdeal.Facts₀ Cert.HostChain
open Idealize.ShloMosaic Idealize.ShloMosaic.TcCoe Idealize.ShloMosaic.ValueIdx Idealize.SL.Sem Idealize.ShloMosaic.StableHlo

variable [Cert.KernelIdeal.Facts]
variable (m : (ℓ : Loc nD τ sig) → Buf (Elt Ideal) ℓ)

/-- The extended activations as the region finds them. -/
theorem V_v2 (c : Dev nD) : (V m c main_v2 : S256x1024.Idx → EReal) = aextK (F := Ideal) (m ((c : Thread nD τ).loc main_arg0)) := by
  show StableHlo.after hostOps0 (fun b => m (c, b)) (Proc.devRef .tc main_v2) = _
  after_results
  rfl

/-- The inverted line as the region finds it. -/
theorem V_v15 (c : Dev nD) : (V m c main_v15 : S256x1024.Idx → EReal) = anegK (F := Ideal) (m ((c : Thread nD τ).loc main_arg0)) := by
  show StableHlo.after hostOps0 (fun b => m (c, b)) (Proc.devRef .tc main_v15) = _
  after_results
  rfl

/-- The batch sums of squares of the extended activations as the region finds them. -/
theorem V_v18 (c : Dev nD) : (V m c main_v18 : S1024x1.Idx → EReal) = sqColK (F := Ideal) (aextK (m ((c : Thread nD τ).loc main_arg0))) := by
  show StableHlo.after hostOps0 (fun b => m (c, b)) (Proc.devRef .tc main_v18) = _
  after_results
  rfl

/-- The batch sums of squares of the inverted line as the region finds them. -/
theorem V_v21 (c : Dev nD) : (V m c main_v21 : S1024x1.Idx → EReal) = sqColK (F := Ideal) (anegK (m ((c : Thread nD τ).loc main_arg0))) := by
  show StableHlo.after hostOps0 (fun b => m (c, b)) (Proc.devRef .tc main_v21) = _
  after_results
  rfl

end Cert.HostPrefix

end
-- ==== Proof.LibCrossbarTiles.lean ====
/-
  A crossbar layer with 512 columns processed as 2 tiles of 256 columns: the dissipated power summed
  tile by tile, each tile in the expanded arrangement `tileK`, equals the power summed column by
  column over the whole array. Each tile is an array of its own, to which the law joining the two
  arrangements applies; a column's power depends on that column only; and the two tiles' columns
  together enumerate the 512 columns exactly once.
-/
import proofs.«106268_j88098369176005_2_alg».proof.Proof.LibCrossbarLaw
import Mathlib

noncomputable section

namespace Cert.Crossbar

/-- Summing over 2 tiles of 256 columns, with column `j` of tile `q` at position `q · 256 + j`,
    is summing over the 512 columns. -/
theorem sum_tiles {α : Type} [AddCommMonoid α] (g : Fin 512 → α) (col : Fin 2 → Fin 256 → Fin 512)
    (hcol : ∀ q j, (col q j).val = q.val * 256 + j.val) :
    ∑ q : Fin 2, ∑ j : Fin 256, g (col q j) = ∑ n : Fin 512, g n := by
  rw [← Fintype.sum_prod_type' (f := fun (q : Fin 2) (j : Fin 256) => g (col q j))]
  refine Fintype.sum_equiv (finProdFinEquiv : Fin 2 × Fin 256 ≃ Fin (2 * 256)) _ _ (fun x => ?_)
  refine congrArg g (Fin.ext ?_)
  rw [hcol]
  simp only [finProdFinEquiv_apply_val]
  ring

/-- The power summed tile by tile, each tile in the expanded arrangement, is the power summed
    column by column. -/
theorem power_tiles {B M : Type} [Fintype B] [Fintype M] (gmax : EReal) (hg : ∃ r : ℝ, gmax = (r : EReal))
    (ae an : B → M → EReal) (te : M → Fin 512 → EReal)
    (hae : ∀ b m, ∃ r : ℝ, ae b m = (r : EReal)) (han : ∀ b m, ∃ r : ℝ, an b m = (r : EReal)) (hte : ∀ m n, ∃ r : ℝ, te m n = (r : EReal))
    (A A' : M → EReal) (hA : ∀ m, A m = ∑ b, ae b m * ae b m) (hA' : ∀ m, A' m = ∑ b, an b m * an b m)
    (col : Fin 2 → Fin 256 → Fin 512) (hcol : ∀ q j, (col q j).val = q.val * 256 + j.val) :
    ∑ q : Fin 2, tileK gmax ae an (fun m (j : Fin 256) => te m (col q j)) A A' = ∑ n : Fin 512, refCol gmax ae an te n := by
  have h1 : ∀ q : Fin 2, tileK gmax ae an (fun m (j : Fin 256) => te m (col q j)) A A'
      = ∑ j : Fin 256, refCol gmax ae an te (col q j) := by
    intro q
    rw [tileK_eq gmax hg ae an (fun m (j : Fin 256) => te m (col q j)) hae han
      (fun m j => hte m (col q j)) A A' hA hA']
    exact Finset.sum_congr rfl fun j _ =>
      refCol_col gmax ae an (fun m (j : Fin 256) => te m (col q j)) te j (col q j) (fun m => rfl)
  rw [Finset.sum_congr rfl fun q _ => h1 q]
  exact sum_tiles (fun n => refCol gmax ae an te n) col hcol

end Cert.Crossbar

end
-- ==== Proof.RefTheta.lean ====
/-
  The conductance side of the reference, read entry by entry: from the raw conductances `θ` (rows × columns)
  the program computes the effective conductances (clip, zero the small ones, and an add-then-subtract of
  `θ` that is the identity on real entries), their magnitudes, the column sums and column maxima of the
  magnitudes, the normalised weights, the two sign masks and the scaled conductances. Each stage is shown
  to be the matching function of the crossbar layer at its coordinates.
-/
import proofs.«106268_j88098369176005_2_alg».proof.Proof.Gen.ReferenceIdeal.Read
import proofs.«106268_j88098369176005_2_alg».proof.Proof.Spec
import Idealize.ShloMosaic.Lib.IdealHost

noncomputable section

namespace Cert.RefValue

open Cert.ReferenceIdeal Cert.ReferenceIdeal.Gen Cert.ReferenceIdeal.Read Cert.Spec Cert.Crossbar Idealize.ShloMosaic Idealize.ShloMosaic.ValueIdx

variable [Cert.ReferenceIdeal.Facts]

/-! ## Small facts about words, selections and the extended reals -/

/-- A pattern whose exponent field is not all ones denotes a real number. -/
theorem ieee_real (e m : Nat) {w : Nat} (b : BitVec w) (h : (b.extractLsb' m e).toNat ≠ 2 ^ e - 1) :
    ∃ r : ℝ, Ideal.ieee e m b = (r : EReal) := by
  unfold Ideal.ieee
  simp only []
  rw [if_neg h]
  split_ifs <;> exact ⟨_, rfl⟩

theorem gmaxC_real : ∃ r : ℝ, gmaxC = (r : EReal) := ieee_real 8 23 (0x3D4CCCCD#32 : BitVec 32) (by decide)
theorem ngmaxC_real : ∃ r : ℝ, ngmaxC = (r : EReal) := ieee_real 8 23 (0xBD4CCCCD#32 : BitVec 32) (by decide)

theorem coe_min' (a b : ℝ) : min (a : EReal) (b : EReal) = ((min a b : ℝ) : EReal) :=
  (EReal.coe_strictMono.monotone.map_min).symm
theorem coe_max' (a b : ℝ) : max (a : EReal) (b : EReal) = ((max a b : ℝ) : EReal) :=
  (EReal.coe_strictMono.monotone.map_max).symm

/-- A clipped conductance is a real number: it lies between the two real bounds. -/
theorem clipS_real (θ : EReal) : ∃ r : ℝ, clipS θ = (r : EReal) := by
  obtain ⟨g, hg⟩ := gmaxC_real
  obtain ⟨n, hn⟩ := ngmaxC_real
  unfold clipS
  rw [hg, hn]
  induction θ using EReal.rec with
  | bot => exact ⟨min g n, by rw [max_eq_left bot_le, coe_min']⟩
  | top => exact ⟨g, by rw [max_eq_right le_top, min_eq_left le_top]⟩
  | coe x => exact ⟨min g (max n x), by rw [coe_max', coe_min']⟩

/-- An effective conductance is a real number. -/
theorem teffS_real (θ : EReal) : ∃ r : ℝ, teffS θ = (r : EReal) := by
  unfold teffS
  split_ifs
  · exact ⟨0, by rw [Ideal.ofBits_zero_f32, EReal.coe_zero]⟩
  · exact clipS_real θ

/-- Adding a real number and taking it away again changes nothing. -/
theorem add_sub_real (t r : ℝ) : ((t : EReal) + (r : EReal)) - (r : EReal) = (t : EReal) := by
  rw [← EReal.coe_add, ← EReal.coe_sub, add_sub_cancel_right]

/-- A selection on the word of a decided proposition is the conditional. -/
theorem select_ofBool {α : Type} (P : Prop) [i1 : Decidable P] [i2 : Decidable P] (a b : α) :
    Scalar.select (BitVec.ofBool (@decide P i1)) a b = @ite α P i2 a b := by
  by_cases h : P
  · rw [if_pos h, @decide_eq_true P i1 h]; exact select_one a b
  · rw [if_neg h, @decide_eq_false P i1 h]; exact select_zero a b

/-- The float of the one-bit word of a decided proposition is one or zero. -/
theorem uitofp_ofBool (P : Prop) [i1 : Decidable P] [i2 : Decidable P] :
    (FloatOps.uitofp (F := Ideal) .f32 (BitVec.ofBool (@decide P i1)) : EReal) = @ite EReal P i2 1 0 := by
  show (((BitVec.ofBool (@decide P i1)).toNat : ℝ) : EReal) = _
  by_cases h : P
  · rw [if_pos h, @decide_eq_true P i1 h]; simp
  · rw [if_neg h, @decide_eq_false P i1 h]; simp

/-- The word of minus infinity is the bottom element. -/
theorem ofBits_neg_inf : Ideal.ofBits .f32 0xFF800000#32 = (⊥ : EReal) := by
  simp [Ideal.ofBits, Ideal.ieee]

/-! ## The stages on the raw conductances -/

section Stages

variable (x1 : (⟨S1024x512, .f32⟩ : BufTy).Contents (Elt Ideal))

/-- The clip. -/
theorem v0_at (i : S1024x512.Idx) : val_main_v0 (F := Ideal) x1 i = clipS (x1 i) := by
  rw [val_main_v0_apply, val_main_call0_v4_apply, val_main_call0_v3_apply, val_main_cst_0_apply,
    val_main_call0_v2_apply, val_main_call0_v1_apply, val_main_call0_v0_apply, val_main_cst_apply]
  rfl

/-- The small magnitudes set to zero. -/
theorem v4_at (i : S1024x512.Idx) : val_main_v4 (F := Ideal) x1 i = teffS (x1 i) := by
  rw [val_main_v4_apply, val_main_v3_apply, val_main_v1_apply, val_main_v2_apply, val_main_cst_1_apply,
    val_main_call1_v1_apply, val_main_call1_v0_apply, val_main_cst_2_apply, v0_at]
  unfold teffS
  exact select_ofBool _ _ _

/-- The effective conductance: on a real entry the add-then-subtract is the identity. -/
theorem v6_at (hx1 : ∀ i, ∃ r : ℝ, x1 i = (r : EReal)) (i : S1024x512.Idx) :
    val_main_v6 (F := Ideal) x1 i = teffS (x1 i) := by
  rw [val_main_v6_apply, val_main_v5_apply, v4_at]
  obtain ⟨t, ht⟩ := teffS_real (x1 i)
  obtain ⟨r, hr⟩ := hx1 i
  rw [ht, hr]
  exact add_sub_real t r

/-- The magnitude. -/
theorem v7_at (hx1 : ∀ i, ∃ r : ℝ, x1 i = (r : EReal)) (m : Fin 1024) (n : Fin 512) :
    val_main_v7 (F := Ideal) x1 (ix2 m n) = absT (teOf x1) m n := by
  rw [val_main_v7_apply, v6_at x1 hx1]
  rfl

/-- The column sums of the magnitudes. -/
theorem v8_at (hx1 : ∀ i, ∃ r : ℝ, x1 i = (r : EReal)) (n : Fin 512) :
    val_main_v8 (F := Ideal) x1 (ix1 n) = colsum (teOf x1) n := by
  rw [val_main_v8_apply, val_main_cst_3_apply, Ideal.ofBits_def, Ideal.ofBits_zero_f32, zero_add]
  unfold colsum
  refine Finset.sum_congr rfl fun k _ => ?_
  rw [show idx_main_v8 (ix1 n) k = ix2 k n from
    funext fun a => match a with | ⟨0, _⟩ => rfl | ⟨1, _⟩ => rfl]
  exact v7_at x1 hx1 k n

/-- The normalised weights. -/
theorem v11_at (hx1 : ∀ i, ∃ r : ℝ, x1 i = (r : EReal)) (m : Fin 1024) (n : Fin 512) :
    val_main_v11 (F := Ideal) x1 (ix2 m n) = wgt (teOf x1) m n := by
  rw [val_main_v11_apply, val_main_v10_apply, val_main_v9_apply,
    show idx_main_v9 (idx_main_v10 (ix2 m n)) = ix1 n from funext fun a => match a with | ⟨0, _⟩ => rfl,
    v8_at x1 hx1, v7_at x1 hx1]
  rfl

/-- The mask of the nonnegative entries. -/
theorem v14_at (hx1 : ∀ i, ∃ r : ℝ, x1 i = (r : EReal)) (m : Fin 1024) (n : Fin 512) :
    val_main_v14 (F := Ideal) x1 (ix2 m n) = pos (teOf x1) m n := by
  rw [val_main_v14_apply, val_main_v13_apply, val_main_v12_apply, val_main_cst_4_apply, v6_at x1 hx1,
    Ideal.ofBits_def, Ideal.ofBits_zero_f32]
  unfold pos
  exact uitofp_ofBool _

/-- The complementary mask. -/
theorem v16_at (hx1 : ∀ i, ∃ r : ℝ, x1 i = (r : EReal)) (m : Fin 1024) (n : Fin 512) :
    val_main_v16 (F := Ideal) x1 (ix2 m n) = neg (teOf x1) m n := by
  rw [val_main_v16_apply, val_main_v15_apply, val_main_cst_5_apply, v14_at x1 hx1, Ideal.ofBits_def,
    Ideal.ofBits_one_f32]
  rfl

/-- The weights under the first mask. -/
theorem v33_at (hx1 : ∀ i, ∃ r : ℝ, x1 i = (r : EReal)) (m : Fin 1024) (n : Fin 512) :
    val_main_v33 (F := Ideal) x1 (ix2 m n) = wgt (teOf x1) m n * pos (teOf x1) m n := by
  rw [val_main_v33_apply, v11_at x1 hx1, v14_at x1 hx1]
  rfl

/-- The weights under the second mask. -/
theorem v35_at (hx1 : ∀ i, ∃ r : ℝ, x1 i = (r : EReal)) (m : Fin 1024) (n : Fin 512) :
    val_main_v35 (F := Ideal) x1 (ix2 m n) = wgt (teOf x1) m n * neg (teOf x1) m n := by
  rw [val_main_v35_apply, v11_at x1 hx1, v16_at x1 hx1]
  rfl

/-- The magnitude again (the program computes it twice). -/
theorem v38_at (hx1 : ∀ i, ∃ r : ℝ, x1 i = (r : EReal)) (m : Fin 1024) (n : Fin 512) :
    val_main_v38 (F := Ideal) x1 (ix2 m n) = absT (teOf x1) m n := by
  rw [val_main_v38_apply, v6_at x1 hx1]
  rfl

/-- Column `n`'s index with row `k` put back. -/
theorem lift_col (h : S1024x512.Reduces [0] S512) (n : Fin 512) (k : Fin (S1024x512.size 0)) :
    h.lift (ix1 n) k = ix2 (⟨k.val, k.isLt⟩ : Fin 1024) n := by
  funext c; apply Fin.ext
  match c with
  | ⟨0, _⟩ => rfl
  | ⟨1, _⟩ => rfl

/-- The column maxima of the magnitudes: the fold of the maximum from the bottom element over the rows
    is the supremum over the rows. -/
theorem v39_at (hx1 : ∀ i, ∃ r : ℝ, x1 i = (r : EReal)) (n : Fin 512) :
    val_main_v39 (F := Ideal) x1 (ix1 n) = colmax (teOf x1) n := by
  have h : S1024x512.Reduces [0] S512 := by decide
  have hf : (val_main_v38 (F := Ideal) x1 ∘ h.lift (ix1 n)) = fun k : Fin 1024 => absT (teOf x1) k n :=
    funext fun k => by
      show val_main_v38 (F := Ideal) x1 (h.lift (ix1 n) k) = _
      rw [lift_col h n k]; exact v38_at x1 hx1 _ n
  unfold val_main_v39
  rw [Host.reduce_eq_fold_single FloatOps.maximumf _ _ reducesTo_S1024x512_S512_d0 h h_S_,
    val_main_cst_13_apply, Ideal.ofBits_def, ofBits_neg_inf]
  unfold colmax
  refine (congrArg (fun f => Finset.fold (FloatOps.maximumf (F := Ideal) (φ := .f32)) (⊥ : EReal) f
    (Finset.univ : Finset (Fin 1024))) hf).trans ?_
  rfl

/-- The scaled conductances. -/
theorem v44_at (hx1 : ∀ i, ∃ r : ℝ, x1 i = (r : EReal)) (m : Fin 1024) (n : Fin 512) :
    val_main_v44 (F := Ideal) x1 (ix2 m n) = gt gmaxC (teOf x1) m n := by
  rw [val_main_v44_apply, val_main_v43_apply, val_main_v42_apply, val_main_v41_apply, val_main_cst_14_apply,
    val_main_v40_apply,
    show idx_main_v40 (idx_main_v43 (ix2 m n)) = ix1 n from funext fun a => match a with | ⟨0, _⟩ => rfl,
    v39_at x1 hx1, v38_at x1 hx1]
  rfl

end Stages

end Cert.RefValue

end
-- ==== Proof.KernelRun.lean ====
/-
  The idealized kernel's run, read: the activations array ends holding, at (b, n), the activation of
  column n's output for batch entry b; the power scalar ends holding the columns' powers summed, times
  the batch factor. The array of partial powers holds one number per tile of 256 columns, each the
  expanded arrangement of that tile's power; summed over the two tiles they are the column-by-column
  power (the crossbar law, tile by tile), which needs every entry of the two driving lines and every
  effective conductance to be a real number: the lines are real when the activations are (a join with
  constants; a hyperbolic tangent), an effective conductance always is (a clipped value or zero).
-/
import proofs.«106268_j88098369176005_2_alg».proof.Proof.KernelFinal
import proofs.«106268_j88098369176005_2_alg».proof.Proof.KernelPay
import proofs.«106268_j88098369176005_2_alg».proof.Proof.HostPrefix
import proofs.«106268_j88098369176005_2_alg».proof.Proof.LibCrossbarTiles
import proofs.«106268_j88098369176005_2_alg».proof.Proof.RefTheta

noncomputable section

namespace Cert.KernelRun

open Cert.KernelIdeal Cert.KernelIdeal.Gen Cert.KernelIdeal.GenH Cert.HostChain Cert.HostPrefix Cert.KernelFinal
open Cert.Spec Cert.Crossbar Cert.LibRealEntries
open Idealize.ShloMosaic Idealize.ShloMosaic.TcCoe Idealize.ShloMosaic.ValueIdx Idealize.SL.Sem

variable (m : (ℓ : Loc nD τ sig) → Buf (Elt Ideal) ℓ) (ρ : Dev nD → PrngReg)

/-- Entry (b, n) of the activations array after the run. -/
theorem anew_final (c : Dev nD) (b : Fin 256) (n : Fin 512) :
    (dats m 0 c).arrAt 5 cfg0.N (ix2 b n)
      = anewAt (aextK (F := Ideal) (m ((c : Thread nD τ).loc main_arg0))) (anegK (F := Ideal) (m ((c : Thread nD τ).loc main_arg0)))
          (m ((c : Thread nD τ).loc main_arg1)) b n := by
  rw [final5 m Cert.KernelPay.anew_pay c b n, V_v2, V_v15, V_main_arg1]

/-- The power scalar after the run, for real activations. -/
theorem power_final (c : Dev nD) (hx0 : ∀ i, IsReal (m ((c : Thread nD τ).loc main_arg0) i)) :
    Pipeline.afterTail₀ cfgs (dats m) 0 (V0 m) [hostOps1] c main_v26 ix0
      = powerOf (aextK (F := Ideal) (m ((c : Thread nD τ).loc main_arg0))) (anegK (F := Ideal) (m ((c : Thread nD τ).loc main_arg0)))
          (m ((c : Thread nD τ).loc main_arg1)) := by
  rw [tail_v26 m c]
  simp only [final6 m Cert.KernelPay.power_pay c]
  rw [V_v2, V_v15, V_main_arg1, V_v18, V_v21, Ideal.ofBits_zero_f32, zero_add]
  unfold powerOf
  refine congrArg (· * scaleC) ?_
  exact power_tiles gmaxC Cert.RefValue.gmaxC_real
    (lineOf (aextK (F := Ideal) (m ((c : Thread nD τ).loc main_arg0))))
    (lineOf (anegK (F := Ideal) (m ((c : Thread nD τ).loc main_arg0))))
    (teOf (m ((c : Thread nD τ).loc main_arg1)))
    (fun b r => aextK_real _ hx0 (ix2 b r)) (fun b r => anegK_real _ (ix2 b r)) (fun _ _ => Cert.RefValue.teffS_real _)
    (fun r => sqColK (F := Ideal) (aextK (m ((c : Thread nD τ).loc main_arg0))) (ix2 r (0 : Fin 1)))
    (fun r => sqColK (F := Ideal) (anegK (m ((c : Thread nD τ).loc main_arg0))) (ix2 r (0 : Fin 1)))
    (fun r => sqColK_apply _ r) (fun r => sqColK_apply _ r) tileCol (fun _ _ => rfl)

/-- The run of the idealized kernel with both results named as functions of the argument arrays. -/
theorem run (hx0 : ∀ (c : Dev nD) i, IsReal (m ((c : Thread nD τ).loc main_arg0) i)) :
    θ_run defs (onTc (τ := τ) (main (F := Ideal))) ⟨m, fun _ => 0, ρ⟩ fun r => ∀ c : Dev nD,
      r.2.mem ((c : Thread nD τ).loc main_v22_0)
        = (fun i : S256x512.Idx => anewAt (aextK (F := Ideal) (m ((c : Thread nD τ).loc main_arg0)))
            (anegK (F := Ideal) (m ((c : Thread nD τ).loc main_arg0))) (m ((c : Thread nD τ).loc main_arg1)) (i 0) (i 1))
      ∧ r.2.mem ((c : Thread nD τ).loc main_v26)
        = (fun _ : S_.Idx => powerOf (aextK (F := Ideal) (m ((c : Thread nD τ).loc main_arg0)))
            (anegK (F := Ideal) (m ((c : Thread nD τ).loc main_arg0))) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).1 5).trans (funext fun i => by rw [eq_ix2 i]; exact anew_final m c _ _),
     ((h c).2 main_v26 (Pipeline.mem_restRefs_of main_v26 (by decide) (by decide))).trans
        (funext fun i => by rw [eq_ix0 i]; exact power_final m c (hx0 c)),
     ((h c).2 main_arg0 (Pipeline.mem_restRefs_of main_arg0 (by decide) (by decide))).trans (W_main_arg0 m (dats m) c),
     ((h c).1 0).trans (((dats m 0 c).arrAt_in 0 rfl _).trans ((A_eq m c 0).trans (V_main_arg1 m c)))⟩)
    (run_main m ρ)

end Cert.KernelRun

end
-- ==== Proof.RefValue.lean ====
/-
  The reference's two results are the crossbar layer's specification. The column outputs are the two
  driving lines contracted against the masked weights; the new activations apply the activation to them;
  the power sums, over every batch entry, row and column, the scaled conductance times the square of what
  the row sees, and the sum over the three-axis index set is re-ordered column by column.
-/
import proofs.«106268_j88098369176005_2_alg».proof.Proof.RefTheta

noncomputable section

namespace Cert.RefValue

open Cert.ReferenceIdeal Cert.ReferenceIdeal.Gen Cert.ReferenceIdeal.Read Cert.Spec Cert.Crossbar Idealize.ShloMosaic Idealize.ShloMosaic.ValueIdx

variable [Cert.ReferenceIdeal.Facts]

/-! ## A three-axis index set is the product of its coordinate ranges -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The triple sum with the last axis brought to the front. -/
theorem sum_last_first {M : Type*} [AddCommMonoid M] {A B C : Type} [Fintype A] [Fintype B] [Fintype C]
    (g : A → B → C → M) : ∑ a, ∑ b, ∑ c, g a b c = ∑ c, ∑ a, ∑ b, g a b c := by
  rw [show (∑ a, ∑ b, ∑ c, g a b c) = ∑ a, ∑ c, ∑ b, g a b c from
    Finset.sum_congr rfl fun a _ => Finset.sum_comm]
  exact Finset.sum_comm

section Results

variable (x0 : (⟨S256x1022, .f32⟩ : BufTy).Contents (Elt Ideal)) (x1 : (⟨S1024x512, .f32⟩ : BufTy).Contents (Elt Ideal))

/-- The column outputs: the two lines against the masked weights. -/
theorem v37_at (hx1 : ∀ i, ∃ r : ℝ, x1 i = (r : EReal)) (b : Fin 256) (n : Fin 512) :
    val_main_v37 (F := Ideal) x0 x1 (ix2 b n)
      = zz (lineOf (val_main_v19 (F := Ideal) x0)) (lineOf (val_main_v32 (F := Ideal) x0)) (teOf x1) b n := by
  rw [val_main_v37_apply, val_main_v34_apply, val_main_v36_apply, Ideal.addf_def]
  unfold zz lineOf
  refine congrArg₂ (· + ·) (Finset.sum_congr rfl fun k _ => ?_) (Finset.sum_congr rfl fun k _ => ?_)
  · rw [show lidx_main_v34 (ix2 b n) k = ix2 b k from
        funext fun a => match a with | ⟨0, _⟩ => rfl | ⟨1, _⟩ => rfl,
      show ridx_main_v34 (ix2 b n) k = ix2 k n from
        funext fun a => match a with | ⟨0, _⟩ => rfl | ⟨1, _⟩ => rfl,
      v33_at x1 hx1]
  · rw [show lidx_main_v36 (ix2 b n) k = ix2 b k from
        funext fun a => match a with | ⟨0, _⟩ => rfl | ⟨1, _⟩ => rfl,
      show ridx_main_v36 (ix2 b n) k = ix2 k n from
        funext fun a => match a with | ⟨0, _⟩ => rfl | ⟨1, _⟩ => rfl,
      v35_at x1 hx1]

/-- The new activations. -/
theorem ref_anew (x0 : (⟨S256x1022, .f32⟩ : BufTy).Contents (Elt Ideal)) (x1 : (⟨S1024x512, .f32⟩ : BufTy).Contents (Elt Ideal))
    (hx1 : ∀ i, ∃ r : ℝ, x1 i = (r : EReal)) (b : Fin 256) (n : Fin 512) :
    val_main_v73 (F := Ideal) x0 x1 (ix2 b n) = anewAt (val_main_v19 (F := Ideal) x0) (val_main_v32 (F := Ideal) x0) x1 b n := by
  rw [val_main_v73_apply, val_main_v72_apply, val_main_cst_20_apply, val_main_v71_apply, val_main_v70_apply,
    val_main_cst_19_apply, val_main_v69_apply, val_main_v68_apply, val_main_v67_apply, val_main_cst_18_apply,
    val_main_v66_apply, val_main_v65_apply, val_main_cst_17_apply, v37_at x0 x1 hx1]
  rfl

/-- What row `m` of column `n` sees for batch entry `b`: its driving line less the column's output. -/
theorem v58_at (hx1 : ∀ i, ∃ r : ℝ, x1 i = (r : EReal)) (b : Fin 256) (m : Fin 1024) (n : Fin 512) :
    val_main_v58 (F := Ideal) x0 x1 (ix3 b m n)
      = term (lineOf (val_main_v19 (F := Ideal) x0)) (lineOf (val_main_v32 (F := Ideal) x0)) (teOf x1) b m n := by
  rw [val_main_v58_apply, val_main_v55_apply, val_main_v49_apply, val_main_v47_apply, val_main_v45_apply,
    val_main_v48_apply, val_main_v46_apply, val_main_v54_apply, val_main_v52_apply, val_main_v50_apply,
    val_main_v53_apply, val_main_v51_apply, val_main_v57_apply, val_main_v56_apply,
    show idx_main_v45 (idx_main_v47 (ix3 b m n)) = ix2 b m from funext fun a => match a with | ⟨0, _⟩ => rfl | ⟨1, _⟩ => rfl,
    show idx_main_v46 (idx_main_v48 (ix3 b m n)) = ix2 m n from funext fun a => match a with | ⟨0, _⟩ => rfl | ⟨1, _⟩ => rfl,
    show idx_main_v50 (idx_main_v52 (ix3 b m n)) = ix2 b m from funext fun a => match a with | ⟨0, _⟩ => rfl | ⟨1, _⟩ => rfl,
    show idx_main_v51 (idx_main_v53 (ix3 b m n)) = ix2 m n from funext fun a => match a with | ⟨0, _⟩ => rfl | ⟨1, _⟩ => rfl,
    show idx_main_v56 (idx_main_v57 (ix3 b m n)) = ix2 b n from funext fun a => match a with | ⟨0, _⟩ => rfl | ⟨1, _⟩ => rfl,
    v14_at x1 hx1, v16_at x1 hx1, v37_at x0 x1 hx1]
  rfl

/-- One summand of the power: the scaled conductance times the square of what the row sees. -/
theorem v62_at (hx1 : ∀ i, ∃ r : ℝ, x1 i = (r : EReal)) (b : Fin 256) (m : Fin 1024) (n : Fin 512) :
    val_main_v62 (F := Ideal) x0 x1 (ix3 b m n)
      = (gt gmaxC (teOf x1) m n
          * term (lineOf (val_main_v19 (F := Ideal) x0)) (lineOf (val_main_v32 (F := Ideal) x0)) (teOf x1) b m n)
        * term (lineOf (val_main_v19 (F := Ideal) x0)) (lineOf (val_main_v32 (F := Ideal) x0)) (teOf x1) b m n := by
  rw [val_main_v62_apply, val_main_v61_apply, val_main_v60_apply, val_main_v59_apply,
    show idx_main_v59 (idx_main_v60 (ix3 b m n)) = ix2 m n from funext fun a => match a with | ⟨0, _⟩ => rfl | ⟨1, _⟩ => rfl,
    v44_at x1 hx1, v58_at x0 x1 hx1]
  rfl

/-- The power: the sum over the three-axis index set, taken column by column, times the batch factor. -/
theorem ref_power (x0 : (⟨S256x1022, .f32⟩ : BufTy).Contents (Elt Ideal)) (x1 : (⟨S1024x512, .f32⟩ : BufTy).Contents (Elt Ideal))
    (hx1 : ∀ i, ∃ r : ℝ, x1 i = (r : EReal)) :
    val_main_v64 (F := Ideal) x0 x1 ix0 = powerOf (val_main_v19 (F := Ideal) x0) (val_main_v32 (F := Ideal) x0) x1 := by
  rw [val_main_v64_apply, val_main_v63_apply, val_main_cst_15_apply, val_main_cst_16_apply, Ideal.mulf_def]
  simp only [Ideal.ofBits_def]
  rw [Ideal.ofBits_zero_f32, zero_add]
  unfold powerOf refCol scaleC
  refine congrArg (· * Ideal.ofBits .f32 0x3F808081#32) ?_
  refine (sum_idx3 _).trans ((sum_last_first fun b m n => val_main_v62 (F := Ideal) x0 x1 (ix3 b m n)).trans ?_)
  exact Finset.sum_congr rfl fun n _ => Finset.sum_congr rfl fun b _ => Finset.sum_congr rfl fun m _ =>
    v62_at x0 x1 hx1 b m n

end Results

end Cert.RefValue

end
-- ==== Proof.LibAllFinite.lean ====
/-
  Reading a precondition's words. A precondition printed from `jnp.all(jnp.abs(x) < inf) & … & jnp.all(s > 0)` is a
  conjunction of `and`-reductions of comparison words, read at its one index. A comparison word that is `1` is the
  comparison of the two extended reals; `|x| < +∞` makes `x` a real number; hence an all-reduction of `|a| < +∞`
  that is `1` makes every entry of `a` real, and a word `a > b` at an index is `b j < a j`.
-/
import proofs.«106268_j88098369176005_2_alg».proof.Proof.LibRealEntries
import Idealize.ShloMosaic.Lib.ReduceAll
import Idealize.ShloMosaic.Lib.ValueIdx
import Idealize.ShloMosaic.PureOps.Ideal.Laws

noncomputable section

namespace Cert.LibAllFinite

open Idealize.ShloMosaic Idealize.ShloMosaic.ValueIdx Cert.LibRealEntries

instance : Subsingleton (⟨0, ![]⟩ : Shape).Idx := ⟨fun a b => funext fun d => d.elim0⟩

/-- The word `0x7F800000` is `+∞`. -/
theorem ofBits_inf : Ideal.ofBits .f32 0x7F800000#32 = (⊤ : EReal) := by
  simp [Ideal.ofBits, Ideal.ieee]

/-- A true comparison word is the comparison. -/
theorem lt_of_cmp_olt {x y : EReal} (h : Ideal.cmp .olt x y = 1#1) : x < y := by
  by_contra hn
  have : decide (x < y) = false := decide_eq_false hn
  simp [Ideal.cmp, this] at h

theorem lt_of_cmp_ogt {x y : EReal} (h : Ideal.cmp .ogt x y = 1#1) : y < x := by
  by_contra hn
  have : decide (y < x) = false := decide_eq_false hn
  simp [Ideal.cmp, this] at h

/-- `|x| < +∞` makes `x` a real number. -/
theorem isReal_of_abs_lt_top (x : EReal) (h : max x (-x) < (⊤ : EReal)) : IsReal x := by
  induction x using EReal.rec with
  | bot => simp at h
  | coe r => exact ⟨r, rfl⟩
  | top => simp at h

/-- `jnp.all(|a| < +∞)` that is true makes every entry of `a` a real number. -/
theorem real_of_all {s : Shape} {axes : List (Fin s.rank)} (a : FVec Ideal s .f32)
    (hb : (⟨0, ![]⟩ : Shape).BroadcastsInDim s (![] : Fin 0 → Fin s.rank))
    (init : IVec ⟨0, ![]⟩ 1) (hred : s.ReducesTo axes ⟨0, ![]⟩) (hu : 0 < (⟨0, ![]⟩ : Shape).numel)
    (h : Host.reduce IntOp.andi
      (cmpf .olt (Host.absf a) (broadcastInDim s ![] hb (constant (F := Ideal) ⟨0, ![]⟩ .f32 0x7F800000#32)))
      init hred hu ix0 = 1#1) (i : s.Idx) : IsReal (a i) := by
  have hi := Host.reduce_andi_all _ init hred hu ix0 h i
  have h1 : Ideal.cmp .olt (max (a i) (-(a i))) (Ideal.ofBits .f32 0x7F800000#32) = 1#1 := hi
  rw [ofBits_inf] at h1
  exact isReal_of_abs_lt_top _ (lt_of_cmp_olt h1)

/-- A true comparison word between two arrays at an index is the inequality of their entries. -/
theorem lt_of_cmpf_ogt {s : Shape} (a b : FVec Ideal s .f32) (j : s.Idx) (h : cmpf .ogt a b j = 1#1) : b j < a j :=
  lt_of_cmp_ogt h

end Cert.LibAllFinite

end
-- ==== Proof.PreReal.lean ====
/-
  What the precondition says: `finite_inputs` is the conjunction of two all-reductions of `|·| < +∞`, one per
  argument array, so under it every entry of both arrays is a real number.
-/
import proofs.«106268_j88098369176005_2_alg».proof.Pre_finite_inputs
import proofs.«106268_j88098369176005_2_alg».proof.Proof.LibAllFinite
import Idealize.ShloMosaic.Lib.Affine

noncomputable section

namespace Cert.PreReal

open Cert.Pre_finite_inputs Cert.Pre_finite_inputs.Facts Cert.LibAllFinite Cert.LibRealEntries
open Idealize.ShloMosaic Idealize.ShloMosaic.ValueIdx

variable [Cert.Pre_finite_inputs.Facts]

/-- Under the precondition both argument arrays hold real numbers only. -/
theorem real_of_pre (x0 : FVec Ideal S256x1022 .f32) (x1 : FVec Ideal S1024x512 .f32)
    (h : fn (F := Ideal) x0 x1 = fun _ => 1#1) : (∀ i, IsReal (x0 i)) ∧ (∀ i, IsReal (x1 i)) := by
  have h0 := congrFun h ix0
  dsimp only [fn] at h0
  obtain ⟨ha, hb⟩ := IntOp.andi_eq_one.1 h0
  exact ⟨real_of_all x0 bcast_S_S256x1022 _ reducesTo_S256x1022_S_d0_1 h_S_ ha,
    real_of_all x1 bcast_S_S1024x512 _ reducesTo_S1024x512_S_d0_1 h_S_ hb⟩

end Cert.PreReal

end
-- ==== Proof.lean ====
/-
  A resistive crossbar layer (1024 rows, 512 columns, batch 256) as one tiled kernel against its
  plain array program, over the extended reals.

  Both programs clip and threshold the raw conductances, normalise each column by its sum of
  magnitudes, drive every row by one of two lines according to the sign of its conductance, and
  return the activation of every column output together with the dissipated power. The kernel
  processes the columns in two tiles of 256 and, instead of the reference's sum over batch × rows ×
  columns of `g · (line − z)²`, adds per tile the expanded form
  `Σ_m (Σ_n g·pos) · Σ_b a² + Σ_m (Σ_n g·neg) · Σ_b ā² + Σ_{b,n} z · (G·z − 2d)`.

  * The activations agree entry by entry: a column's output is the same finite sum on both sides.
  * The powers agree by the crossbar law (`Cert.Crossbar.tileK_eq`, tile by tile in
    `power_tiles`): expanding the square is legitimate wherever the quantities are real numbers, and
    they are — the lines by the finiteness of the activations, the effective conductances always —
    except in a column whose conductances all vanish, where the normalised weights are `0/0`; there the
    scaled conductances are zero and both arrangements contribute zero.
  * The frames: each kernel program loads its windows whole, stores its two output windows whole, and
    leaves its arguments alone; the reference is a straight line of host operations.
  * Nothing was rewritten by the idealization, so `preserves` is trivial.
-/
import proofs.«106268_j88098369176005_2_alg».proof.Defs
import proofs.«106268_j88098369176005_2_alg».proof.Proof.Gen.Kernel
import proofs.«106268_j88098369176005_2_alg».proof.Proof.Gen.KernelIdeal
import proofs.«106268_j88098369176005_2_alg».proof.Proof.Gen.ReferenceIdeal
import proofs.«106268_j88098369176005_2_alg».proof.Proof.Gen.Pre_finite_inputs
import proofs.«106268_j88098369176005_2_alg».proof.Proof.FrameK
import proofs.«106268_j88098369176005_2_alg».proof.Proof.FrameI
import proofs.«106268_j88098369176005_2_alg».proof.Proof.KernelRun
import proofs.«106268_j88098369176005_2_alg».proof.Proof.RefValue
import proofs.«106268_j88098369176005_2_alg».proof.Proof.PreReal
import Idealize.ShloMosaic.Adequacy
import Idealize.ShloMosaic.Init

noncomputable section

namespace Cert.Proof

open Idealize.ShloMosaic Idealize.ShloMosaic.TcCoe Idealize.ShloMosaic.ValueIdx Idealize.SL.Sem
open Cert.Spec Cert.HostChain

/-- The reference's two driving lines are the kernel program's: the same host operations of the activations. -/
theorem aext_eq (x : FVec Ideal Cert.KernelIdeal.S256x1022 .f32) :
    Cert.ReferenceIdeal.Read.val_main_v19 (F := Ideal) x = aextK (F := Ideal) x := rfl
theorem aneg_eq (x : FVec Ideal Cert.KernelIdeal.S256x1022 .f32) :
    Cert.ReferenceIdeal.Read.val_main_v32 (F := Ideal) x = anegK (F := Ideal) x := rfl

theorem frame_k : Cert.frame_Kernel :=
  fun m ρ _ => Cert.Kernel.GenH.frame m ρ

theorem frame_i : Cert.frame_KernelIdeal :=
  fun m ρ _ => Cert.KernelIdeal.GenH.frame m ρ

/-- The reference's frame is its run with the results dropped. -/
theorem frame_r : Cert.frame_ReferenceIdeal :=
  fun m ρ _ => (θ_run Cert.ReferenceIdeal.defs _ _).mono (fun _ h c => (h c).2.2)
    (Cert.ReferenceIdeal.Value.run (F := Ideal) m ρ)

/-- Both idealized programs end with the activations `anewAt` and the power `powerOf` of the same three
    arrays: the two lines computed from the activations, and the raw conductances. -/
theorem algebraic : Cert.algebraic_KernelIdeal_ReferenceIdeal := by
  intro m ρ m' ρ' hpre hagree
  have hreal := fun c => Cert.PreReal.real_of_pre _ _ (hpre c)
  refine ⟨_, _, Cert.KernelRun.run m ρ (fun c => (hreal c).1), ?_⟩
  refine (θ_run Cert.ReferenceIdeal.defs _ _).mono (fun r h c => ⟨?_, ?_, (h c).2.2.1, (h c).2.2.2⟩)
    (Cert.ReferenceIdeal.Value.run (F := Ideal) m' ρ')
  · rw [(h c).1, Cert.ReferenceIdeal.Read.val_main_v73_eq, (hagree c).1, (hagree c).2]
    funext i
    obtain ⟨b, n, rfl⟩ : ∃ (b : Fin 256) (n : Fin 512), i = ix2 b n := ⟨i 0, i 1, eq_ix2 i⟩
    rw [Cert.RefValue.ref_anew _ _ (hreal c).2 b n, aext_eq, aneg_eq]
  · rw [(h c).2.1, Cert.ReferenceIdeal.Read.val_main_v64_eq, (hagree c).1, (hagree c).2]
    funext i
    obtain rfl : i = ix0 := eq_ix0 i
    rw [Cert.RefValue.ref_power _ _ (hreal c).2, aext_eq, aneg_eq]

theorem claim : Cert.Claim :=
  ⟨Cert.Kernel.Gen.facts, Cert.KernelIdeal.Gen.facts, Cert.ReferenceIdeal.Gen.facts, Cert.Pre_finite_inputs.Gen.facts,
    frame_k, frame_i, frame_r, trivial, algebraic⟩

end Cert.Proof

end
